-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : IVec S2x1600000 32) (main_arg2 : FVec F S64x64 .f32) (main_arg3 : FVec F S64 .f32) (main_arg4 : FVec F S64x16 .f32) (main_arg5 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x64 : Shape := ⟨2, ![5000, 64]⟩
abbrev S1650000x64 : Shape := ⟨2, ![1650000, 64]⟩
abbrev S1x64 : Shape := ⟨2, ![1, 64]⟩
abbrev S50000x16 : Shape := ⟨2, ![50000, 16]⟩
abbrev S5000x16 : Shape := ⟨2, ![5000, 16]⟩
abbrev S1650000x16 : Shape := ⟨2, ![1650000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S1650000x1, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x64, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x16, .f32⟩
  | .hbm, ⟨65, _⟩ => ⟨S1650000x1, .f32⟩
  | .hbm, ⟨66, _⟩ => ⟨S_, .i32⟩
  | .hbm, ⟨67, _⟩ => ⟨S1650000, .i32⟩
  | .hbm, ⟨68, _⟩ => ⟨S1650000, .i1⟩
  | .hbm, ⟨69, _⟩ => ⟨S_, .i32⟩
  | .hbm, ⟨70, _⟩ => ⟨S1650000, .i32⟩
  | .hbm, ⟨71, _⟩ => ⟨S1650000, .i32⟩
  | .hbm, ⟨72, _⟩ => ⟨S1650000, .i32⟩
  | .hbm, ⟨73, _⟩ => ⟨S1650000x1, .i32⟩
  | .hbm, ⟨74, _⟩ => ⟨S1650000x16, .f32⟩
  | .hbm, ⟨75, _⟩ => ⟨S1650000x16, .f32⟩
  | .hbm, ⟨76, _⟩ => ⟨S1650000x16, .f32⟩
  | .hbm, ⟨77, _⟩ => ⟨S_, .f32⟩
  | .hbm, ⟨78, _⟩ => ⟨S50000x16, .f32⟩
  | .hbm, ⟨79, _⟩ => ⟨S1650000x1, .i32⟩
  | .hbm, ⟨80, _⟩ => ⟨S50000x16, .f32⟩
  | .hbm, ⟨81, _⟩ => ⟨S1x16, .f32⟩
  | .hbm, ⟨82, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x64_S64x64_S5000x64_1_0_0_1_n_n_wf : DotDims.WF S5000x64 S64x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x16_S5000x16_1_0_0_1_n_n_wf : DotDims.WF S5000x64 S64x16 S5000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S50000x16.size a
  hwx1_3 : ∀ i : grid1.Coords, EltTy.bits .f32 = 32 ∨ (Rect.block (s := S50000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x16 : Shape := ⟨2, ![50000, 16]⟩
abbrev S1650000x16 : Shape := ⟨2, ![1650000, 16]⟩
abbrev S1x16 : Shape := ⟨2, ![1, 16]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x1600000, .i32⟩
  | 2 => ⟨S64x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S50000x64, .f32⟩
  | 11 => ⟨S50000, .i32⟩
  | 12 => ⟨S1650000, .i32⟩
  | 13 => ⟨S1650000, .i32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S1650000x1, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000x64, .f32⟩
  | 57 => ⟨S1650000x64, .f32⟩
  | 58 => ⟨S1650000x64, .f32⟩
  | 59 => ⟨S_, .f32⟩
  | 60 => ⟨S50000x64, .f32⟩
  | 61 => ⟨S1650000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x16, .f32⟩
  | 70 => ⟨S50000, .i32⟩
  | 71 => ⟨S1650000, .i32⟩
  | 72 => ⟨S1650000, .i32⟩
  | 73 => ⟨S_, .f32⟩
  | 74 => ⟨S1650000, .f32⟩
  | 75 => ⟨S_, .f32⟩
  | 76 => ⟨S50000, .f32⟩
  | 77 => ⟨S1650000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S1650000, .i32⟩
  | 89 => ⟨S1650000, .i1⟩
  | 90 => ⟨S_, .i32⟩
  | 91 => ⟨S1650000, .i32⟩
  | 92 => ⟨S1650000, .i32⟩
  | 93 => ⟨S1650000, .i32⟩
  | 94 => ⟨S1650000x1, .i32⟩
  | 95 => ⟨S1650000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000, .f32⟩
  | 105 => ⟨S1650000, .f32⟩
  | 106 => ⟨S1650000x1, .f32⟩
  | 107 => ⟨S_, .i32⟩
  | 108 => ⟨S1650000, .i32⟩
  | 109 => ⟨S1650000, .i1⟩
  | 110 => ⟨S_, .i32⟩
  | 111 => ⟨S1650000, .i32⟩
  | 112 => ⟨S1650000, .i32⟩
  | 113 => ⟨S1650000, .i32⟩
  | 114 => ⟨S1650000x1, .i32⟩
  | 115 => ⟨S1650000x16, .f32⟩
  | 116 => ⟨S1650000x16, .f32⟩
  | 117 => ⟨S1650000x16, .f32⟩
  | 118 => ⟨S_, .f32⟩
  | 119 => ⟨S50000x16, .f32⟩
  | 120 => ⟨S1650000x1, .i32⟩
  | 121 => ⟨S50000x16, .f32⟩
  | 122 => ⟨S1x16, .f32⟩
  | 123 => ⟨S50000x16, .f32⟩
  | 124 => ⟨S50000x16, .f32⟩
  | 125 => ⟨S_, .f32⟩
  | 126 => ⟨S50000, .f32⟩
  | 127 => ⟨S_, .f32⟩
  | _ => ⟨S50000x64, .f32⟩

abbrev hbmTy0_1 (i : Nat) : BufTy := match i % 128 with
  | 0 => ⟨S50000, .f32⟩
  | 1 => ⟨S50000, .f32⟩
  | 2 => ⟨S50000x1, .f32⟩
  | 3 => ⟨S50000x16, .f32⟩
  | 4 => ⟨S50000x16, .f32⟩
  | 5 => ⟨S50000x16, .f32⟩
  | 6 => ⟨S_, .f32⟩
  | 7 => ⟨S50000, .f32⟩
  | 8 => ⟨S50000x1, .f32⟩
  | 9 => ⟨S50000x1, .f32⟩
  | 10 => ⟨S50000x16, .f32⟩
  | 11 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x16_S50000x16_1_0_0_1_n_n_wf : DotDims.WF S50000x64 S64x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.Region0.lean ====
/-
  Region 0 of the idealized kernel: a row-tiled matrix product.

  The first pallas_call multiplies ten blocks of 5000 rows of a [50000, 64] array by one whole [64, 64] weight, each block's
  product written to the same rows of the result. Whatever the buffers hold when the region is entered, the result array
  ends holding, at `(P, q)`, the contraction `∑ k, X (P, k) · W (k, q)` of the two arrays the windows read.
-/
import proofs.«129904_j44736379355209_1_alg».proof.Proof.Gen.KernelIdeal.Frame
import proofs.«129904_j44736379355209_1_alg».proof.Proof.LibPlainProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a [50000, 64] array by a [64, 64] weight, entry by entry. -/
def prod (X : S50000x64.Idx → EReal) (W : S64x64.Idx → EReal) : S50000x64.Idx → EReal :=
  fun i => ∑ k : Fin 64, X (ix2 (⟨(i 0).val, (i 0).isLt⟩ : Fin 50000) k) * W (ix2 k (⟨(i 1).val, (i 1).isLt⟩ : Fin 64))

/-- The body's stored value at `(p, q)` of a block: the contraction of the block's row `p` with the weight's column `q`. -/
theorem pay_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  exact Cert.PlainProduct.matmul_plain_apply dot_S5000x64_S64x64_S5000x64_1_0_0_1_n_n rfl none
    (truncf .bf16 x0 bitsLt_bf16_f32) (truncf .bf16 x1 bitsLt_bf16_f32) p q

/-- The printed index maps over the grid: the row blocks of the input and of the output move together, the weight's
    block and every column block stay at 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the two arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = prod (V c main_arg0) (V c main_arg2) (((cfg0.win 2).blk t).view.emb (ix2 p q))
  refine (pay_apply (iblk0 V c 0 t) (iblk0 V c 1 t) p q).trans ?_
  unfold prod
  refine Finset.sum_congr rfl fun k _ => ?_
  have h0 : iblk0 V c 0 t (ix2 p k) = V c main_arg0 (ix2 (⟨((((cfg0.win 2).blk t).view.emb (ix2 p q)) 0).val, ((((cfg0.win 2).blk t).view.emb (ix2 p q)) 0).isLt⟩ : Fin 50000) k) := by
    unfold iblk0
    rw [View.read_apply]
    show V c main_arg0 (((cfg0.win 0).blk t).view.emb (ix2 p k)) = V c main_arg0 _
    congr 1
    funext a
    apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : iblk0 V c 1 t (ix2 k q) = V c main_arg2 (ix2 k (⟨((((cfg0.win 2).blk t).view.emb (ix2 p q)) 1).val, ((((cfg0.win 2).blk t).view.emb (ix2 p q)) 1).isLt⟩ : Fin 64)) := by
    unfold iblk0
    rw [View.read_apply]
    show V c main_arg2 (((cfg0.win 1).blk t).view.emb (ix2 k q)) = V c main_arg2 _
    congr 1
    funext a
    apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]

/-- An index of the result array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` of the result lies in the block of the point `r / 5000`: the ten blocks tile the array. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  refine ⟨t, flush0_2 t, ?_⟩
  rw [mem_blk]
  obtain ⟨e0, e1, e2, e3, e4, e5⟩ := idx_facts t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of the two arrays the region finds in its input windows. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Region0

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.Region1.lean ====
/-
  Region 1 of the idealized kernel: bias, rectifier and a row-tiled matrix product.

  The second pallas_call takes ten blocks of 5000 rows of a [50000, 64] array, adds a one-row bias to every row, clamps at
  zero from below and multiplies by one whole [64, 16] weight. Whatever the buffers hold when the region is entered, the
  result array ends holding, at `(P, q)`, `∑ k, max (A (P, k) + b (0, k)) 0 · W (k, q)` of the three arrays the windows read.
-/
import proofs.«129904_j44736379355209_1_alg».proof.Proof.Gen.KernelIdeal.Frame
import proofs.«129904_j44736379355209_1_alg».proof.Proof.LibPlainProduct
import proofs.«129904_j44736379355209_1_alg».proof.Proof.LibRepeat
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Bias, rectifier and product, entry by entry: a [50000, 64] array, a [1, 64] bias row, a [64, 16] weight. -/
def dense (A : S50000x64.Idx → EReal) (B : S1x64.Idx → EReal) (W : S64x16.Idx → EReal) : S50000x16.Idx → EReal :=
  fun i => ∑ k : Fin 64, max (A (ix2 (⟨(i 0).val, (i 0).isLt⟩ : Fin 50000) k) + B (ix2 (0 : Fin 1) k)) (Ideal.ofBits .f32 0x00000000#32)
    * W (ix2 k (⟨(i 1).val, (i 1).isLt⟩ : Fin 16))

/-- The body's stored value at `(p, q)` of a block. -/
theorem pay_apply (x0 : Vec Ideal S5000x64 .f32) (x1 : Vec Ideal S1x64 .f32) (x2 : Vec Ideal S64x16 .f32) (p : Fin 5000) (q : Fin 16) :
    k1_pay1 x0 x1 x2 (ix2 p q)
      = ∑ k : Fin 64, max (x0 (ix2 p k) + x1 (ix2 (0 : Fin 1) k)) (Ideal.ofBits .f32 0x00000000#32) * x2 (ix2 k q) := by
  unfold k1_pay1
  refine (Cert.PlainProduct.matmul_plain_apply dot_S5000x64_S64x16_S5000x16_1_0_0_1_n_n rfl none _ _ p q).trans ?_
  refine Finset.sum_congr rfl fun k _ => ?_
  rw [truncf_apply, truncf_apply, maximumf_apply, addf_apply, shapeCast_self, shapeCast_self,
    Cert.Lib.Repeat.rowRepeat_apply, broadcast_apply]
  rfl

/-- The printed index maps over the grid: the row blocks of the input and of the output move together, the bias row's and
    the weight's block and every column block stay at 0. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- What point `t` writes back is block `t` of `dense` of the three arrays the region finds. -/
theorem flushed_eq (c : Dev nD) (t : Fin cfg1.N) :
    (dat1 V c).flushed 3 t
      = ((cfg1.win 3).blk t).view.read (Elt Ideal) (dense (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x16) hz]
  obtain ⟨e0, e1, e2, e3, e4, e5, e6, e7⟩ := idx_facts t
  funext j
  obtain ⟨p, q, rfl⟩ : ∃ (p : Fin 5000) (q : Fin 16), j = ix2 p q := ⟨j 0, j 1, eq_ix2 j⟩
  show k1_pay1 (iblk1 V c 0 t) (iblk1 V c 1 t) (iblk1 V c 2 t) (ix2 p q)
    = dense (V c main_v43) (V c main_v44) (V c main_arg4) (((cfg1.win 3).blk t).view.emb (ix2 p q))
  refine (pay_apply (iblk1 V c 0 t) (iblk1 V c 1 t) (iblk1 V c 2 t) p q).trans ?_
  unfold dense
  refine Finset.sum_congr rfl fun k _ => ?_
  have h0 : iblk1 V c 0 t (ix2 p k) = V c main_v43 (ix2 (⟨((((cfg1.win 3).blk t).view.emb (ix2 p q)) 0).val, ((((cfg1.win 3).blk t).view.emb (ix2 p q)) 0).isLt⟩ : Fin 50000) k) := by
    unfold iblk1
    rw [View.read_apply]
    show V c main_v43 (((cfg1.win 0).blk t).view.emb (ix2 p k)) = V c main_v43 _
    congr 1
    funext a
    apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have h1 : iblk1 V c 1 t (ix2 (0 : Fin 1) k) = V c main_v44 (ix2 (0 : Fin 1) k) := by
    unfold iblk1
    rw [View.read_apply]
    show V c main_v44 (((cfg1.win 1).blk t).view.emb (ix2 (0 : Fin 1) k)) = V c main_v44 _
    congr 1
    funext a
    apply Fin.ext
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k q) = V c main_arg4 (ix2 k (⟨((((cfg1.win 3).blk t).view.emb (ix2 p q)) 1).val, ((((cfg1.win 3).blk t).view.emb (ix2 p q)) 1).isLt⟩ : Fin 16)) := by
    unfold iblk1
    rw [View.read_apply]
    show V c main_arg4 (((cfg1.win 2).blk t).view.emb (ix2 k q)) = V c main_arg4 _
    congr 1
    funext a
    apply Fin.ext
    match a with
    | ⟨0, _⟩ => show win1_2.index t (0 : Fin 2) * 64 + 1 * k.val = k.val; omega
    | ⟨1, _⟩ => show win1_2.index t (1 : Fin 2) * 16 + 1 * q.val = win1_3.index t (1 : Fin 2) * 16 + 1 * q.val; omega
  rw [h0, h1, h2]

/-- An index of the result array is in point `t`'s block iff each coordinate is in the block's range on its axis. -/
theorem mem_blk (t : Fin cfg1.N) (i : S50000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v45).slice (win1_3.rect t)).set ↔ _
  rw [View.set_slice_whole, Rect.mem_set_unit]
  exact Iff.rfl

/-- Row `r` of the result lies in the block of the point `r / 5000`: the ten blocks tile the array. -/
theorem cover (i : S50000x16.Idx) :
    ∃ t : Fin cfg1.N, (cfg1.win 3).flush t = true ∧ i ∈ ((cfg1.win 3).blk t).view.set := by
  have hi0 : (i 0).val < 50000 := (i 0).isLt
  have hi1 : (i 1).val < 16 := (i 1).isLt
  have hN : cfg1.N = 10 := N_1
  let t : Fin cfg1.N := ⟨(i 0).val / 5000, by rw [hN]; omega⟩
  refine ⟨t, flush1_3 t, ?_⟩
  rw [mem_blk]
  obtain ⟨e0, e1, e2, e3, e4, e5, e6, e7⟩ := idx_facts t
  have ht : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- The result array after the region: `dense` of the three arrays the region finds in its input windows. -/
theorem final (c : Dev nD) :
    (dat1 V c).arrAt 3 cfg1.N = dense (V c main_v43) (V c main_v44) (V c main_arg4) :=
  (dat1 V c).arrAt_eq_of_cover 3 (dense (V c main_v43) (V c main_v44) (V c main_arg4)) (fun t _ => flushed_eq V c t) cover

end Cert.KernelIdeal.Region1

end
-- ==== Proof.LibBlockOps.lean ====
/-
  Blocks of rows read at an index, over arbitrary sizes: a column repeated across the columns of a block, a product with a
  transposed weight, the stage that averages a block of neighbour sums and projects it, and the logarithm of the softmax
  of a block with two columns.

  • An `[m, 1]` column repeated across `n` columns reads, at `(a, c)`, the column at `(a, 0)`; a length-`m` vector cast
    to such a column first reads the vector at `a`.
  • A block `[m, k]` times the transpose of a weight `[n, k]`, into a zero accumulator, is at `(a, j)` the contraction
    `∑ c, A (a, c) · W (j, c)`.
  • The averaging stage divides each row of a block of sums by that row's count, clipped below at a threshold, projects
    the quotient by one weight, adds a one-row bias, and adds the projection of a second block by a second weight.
  • For a block with two columns the row maximum, taken as a fold of `max` from `-∞` and then `max` with `-∞` once more,
    is the larger of the row's two entries; subtracting it, exponentiating, summing along the row, taking the logarithm
    and subtracting that gives the logarithm of the softmax of the row.
-/
import Idealize.ShloMosaic.Lib.StackMember
import Idealize.ShloMosaic.Lib.KernelVsHost
import Idealize.ShloMosaic.Lib.ValueLayout
import Idealize.ShloMosaic.PureOps.Ideal.Laws

noncomputable section

namespace Cert.BlockOps

open Idealize.ShloMosaic Idealize.ShloMosaic.ValueIdx Idealize.ShloMosaic.StackMember

variable {m k n : Nat}

/-! ## A column repeated across columns -/

/-- An `[m, 1]` column repeated across `n` columns reads, at `(a, c)`, the column at `(a, 0)`. -/
theorem broadcastTo_a1_ab_apply {α : Type} (v : (⟨2, ![m, 1]⟩ : Shape).Idx → α)
    (h : (⟨2, ![m, 1]⟩ : Shape).Broadcasts ⟨2, ![m, n]⟩) (a : Fin m) (c : Fin n) :
    broadcastTo ⟨2, ![m, n]⟩ v h (ix2 a c) = v (ix2 a (0 : Fin 1)) := by
  refine broadcastTo_apply v h (ix2 a c) (ix2 a (0 : Fin 1)) fun ax => ?_
  match ax with
  | ⟨0, _⟩ =>
    show a.val = if m = 1 then 0 else a.val
    split
    · have := a.isLt; omega
    · rfl
  | ⟨1, _⟩ => rfl

/-- A length-`m` vector cast to a column and repeated across `n` columns reads, at `(a, c)`, the vector at `a`. -/
theorem columnBroadcast_apply {α : Type} (x : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (a : Fin m) (c : Fin n) :
    broadcastTo ⟨2, ![m, n]⟩ (shapeCast ⟨2, ![m, 1]⟩ x hc) hb (ix2 a c) = x (ix1 a) := by
  rw [broadcastTo_a1_ab_apply]
  exact shapeCast_apply x hc _ _ (by
    rw [Shape.rowMajor_val_two, Shape.rowMajor_val_one]
    show a.val = a.val * 1 + 0
    omega)

/-! ## A product with a transposed weight -/

/-- A block times the transpose of a weight, into the zero accumulator, at `(a, j)`: both factors are read along their
    second coordinate. -/
theorem matmul_transposed_apply (d : DotDims ⟨2, ![m, k]⟩ ⟨2, ![k, n]⟩ ⟨2, ![m, n]⟩) (hd : d = DotDims.plain m k n)
    (prec : Option ContractPrecision) (A : FVec Ideal ⟨2, ![m, k]⟩ .f32) (W : FVec Ideal ⟨2, ![n, k]⟩ .f32)
    (hW : (⟨2, ![n, k]⟩ : Shape).Transposes [1, 0] ⟨2, ![k, n]⟩) (a : Fin m) (j : Fin n) :
    matmul d prec A (transpose ⟨2, ![k, n]⟩ [1, 0] W hW) (constant ⟨2, ![m, n]⟩ .f32 0x00000000#32) (ix2 a j)
      = ∑ c : Fin k, A (ix2 a c) * W (ix2 j c) := by
  subst hd
  rw [matmul_zero_eq_dotGeneral, dotGeneral_plain_apply]
  exact Finset.sum_congr rfl fun c _ => by rw [transpose_ix2_apply]

/-! ## The averaging stage -/

/-- The quotient of a block of sums by its rows' clipped counts, at `(a, c)`. -/
theorem clippedMean_apply (N : FVec Ideal ⟨2, ![m, k]⟩ .f32) (D : FVec Ideal ⟨2, ![m, 1]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩) (a : Fin m) (c : Fin k) :
    divf (shapeCast ⟨2, ![m, k]⟩ N hN)
        (broadcastTo ⟨2, ![m, k]⟩
          (maximumf (shapeCast ⟨2, ![m, 1]⟩ D hD) (broadcast ⟨2, ![m, 1]⟩ (Scalar.ofBits (F := Ideal) .f32 θ))) hDb) (ix2 a c)
      = Ideal.div (N (ix2 a c)) (max (D (ix2 a (0 : Fin 1))) (Ideal.ofBits .f32 θ)) := by
  rw [divf_apply, broadcastTo_a1_ab_apply, maximumf_apply, shapeCast_self N hN, shapeCast_self D hD]
  rfl

/-- The averaging stage at `(a, j)`. -/
theorem meanProject_apply (d : DotDims ⟨2, ![m, k]⟩ ⟨2, ![k, n]⟩ ⟨2, ![m, n]⟩) (hd : d = DotDims.plain m k n)
    (prec : Option ContractPrecision)
    (N : FVec Ideal ⟨2, ![m, k]⟩ .f32) (D : FVec Ideal ⟨2, ![m, 1]⟩ .f32) (W₁ : FVec Ideal ⟨2, ![n, k]⟩ .f32)
    (B : FVec Ideal ⟨2, ![1, n]⟩ .f32) (X : FVec Ideal ⟨2, ![m, k]⟩ .f32) (W₂ : FVec Ideal ⟨2, ![n, k]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩)
    (hW : (⟨2, ![n, k]⟩ : Shape).Transposes [1, 0] ⟨2, ![k, n]⟩)
    (hB : (⟨2, ![1, n]⟩ : Shape).ShapeCasts ⟨2, ![1, n]⟩) (hBb : (⟨2, ![1, n]⟩ : Shape).Broadcasts ⟨2, ![m, n]⟩)
    (a : Fin m) (j : Fin n) :
    addf
        (addf
          (matmul d prec
            (divf (shapeCast ⟨2, ![m, k]⟩ N hN)
              (broadcastTo ⟨2, ![m, k]⟩
                (maximumf (shapeCast ⟨2, ![m, 1]⟩ D hD) (broadcast ⟨2, ![m, 1]⟩ (Scalar.ofBits (F := Ideal) .f32 θ))) hDb))
            (transpose ⟨2, ![k, n]⟩ [1, 0] W₁ hW) (constant ⟨2, ![m, n]⟩ .f32 0x00000000#32))
          (broadcastTo ⟨2, ![m, n]⟩ (shapeCast ⟨2, ![1, n]⟩ B hB) hBb))
        (matmul d prec X (transpose ⟨2, ![k, n]⟩ [1, 0] W₂ hW) (constant ⟨2, ![m, n]⟩ .f32 0x00000000#32)) (ix2 a j)
      = ((∑ c : Fin k, Ideal.div (N (ix2 a c)) (max (D (ix2 a (0 : Fin 1))) (Ideal.ofBits .f32 θ)) * W₁ (ix2 j c))
          + B (ix2 (0 : Fin 1) j))
        + ∑ c : Fin k, X (ix2 a c) * W₂ (ix2 j c) := by
  rw [addf_apply, addf_apply, matmul_transposed_apply d hd, matmul_transposed_apply d hd, broadcastTo_1b_ab_apply,
    shapeCast_self B hB]
  refine congrArg (fun t => t + B (ix2 (0 : Fin 1) j) + ∑ c : Fin k, X (ix2 a c) * W₂ (ix2 j c))
    (Finset.sum_congr rfl fun c _ => ?_)
  rw [clippedMean_apply]

/-! ## The logarithm of the softmax of a block with two columns -/

/-- The index of a one-axis reduction along the rows: the result index `a` with the column `q` put back. -/
theorem lift_columns (h : (⟨2, ![m, n]⟩ : Shape).Reduces [1] ⟨1, ![m]⟩) (a : Fin m) (q : Fin n) :
    h.lift (ix1 a) q = ix2 a q := by
  funext c
  refine Fin.ext ?_
  match c with
  | ⟨0, _⟩ => rfl
  | ⟨1, _⟩ => rfl

/-- The fold of `max` from `-∞` over two values is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The pattern of `-∞` denotes the least extended real. -/
theorem ofBits_negInf_f32 : Ideal.ofBits .f32 0xFF800000#32 = ⊥ := by simp [Ideal.ofBits, Ideal.ieee]

/-- The row maximum of a two-column block, as a fold from `-∞` followed by a `max` with `-∞`, at row `a`. -/
theorem rowMax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ) (a : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 a)
      = max (Z (ix2 a (0 : Fin 2))) (Z (ix2 a (1 : Fin 2))) := by
  rw [maximumf_apply]
  refine (congrArg (max _) (Ideal.multiReduction_maximumf_single Z _ hr hφ hmax (ix1 a))).trans ?_
  have hfold : (Finset.univ : Finset (Fin 2)).fold max (Ideal.ofBits .f32 0xFF800000#32)
      (fun q : Fin 2 => Z (hr.lift (ix1 a) q)) = max (Z (ix2 a (0 : Fin 2))) (Z (ix2 a (1 : Fin 2))) := by
    rw [ofBits_negInf_f32, fold_max_two, lift_columns, lift_columns]
  exact (congrArg (max (Ideal.ofBits .f32 0xFF800000#32)) hfold).trans (by rw [ofBits_negInf_f32, max_bot_left])

/-- The sum along the rows of a block, at row `a`: the sum over the row's entries. -/
theorem rowSum_apply (src : FVec Ideal ⟨2, ![m, n]⟩ .f32)
    (hr : (⟨2, ![m, n]⟩ : Shape).Reduces [1] ⟨1, ![m]⟩) (hφ : FKind.Formats .f32)
    (hadd : (0x00000000#32 : BitVec 32) = FKind.add.neutral .f32 hφ) (a : Fin m) :
    multiReduction (F := Ideal) .add [1] ⟨1, ![m]⟩ src 0x00000000#32 hr hφ hadd (ix1 a) = ∑ q : Fin n, src (ix2 a q) :=
  (Ideal.multiReduction_add_single src _ hr hφ hadd (ix1 a)).trans
    (Finset.sum_congr rfl fun q _ => congrArg src (lift_columns hr a q))

/-- The logarithm of the softmax of a two-column block at `(a, j)`, computed with the row maximum subtracted first. -/
theorem logSoftmax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 2]⟩)
    (a : Fin m) (j : Fin 2) :
    subf
        (subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, 2]⟩
          (log (shapeCast ⟨2, ![m, 1]⟩
            (multiReduction (F := Ideal) .add [1] ⟨1, ![m]⟩
              (exp (subf Z (broadcastTo ⟨2, ![m, 2]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = (Z (ix2 a j) - max (Z (ix2 a (0 : Fin 2))) (Z (ix2 a (1 : Fin 2))))
        - Ideal.log (∑ q : Fin 2, Ideal.exp (Z (ix2 a q) - max (Z (ix2 a (0 : Fin 2))) (Z (ix2 a (1 : Fin 2))))) := by
  have hcen : ∀ q : Fin 2,
      subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 a q)
        = Z (ix2 a q) - max (Z (ix2 a (0 : Fin 2))) (Z (ix2 a (1 : Fin 2))) := fun q => by
    rw [subf_apply, columnBroadcast_apply, rowMax_two_apply]
  rw [subf_apply, hcen j, broadcastTo_a1_ab_apply]
  refine congrArg (fun t => Z (ix2 a j) - max (Z (ix2 a (0 : Fin 2))) (Z (ix2 a (1 : Fin 2))) - Ideal.log t) ?_
  refine (shapeCast_apply _ hc (ix2 a (0 : Fin 1)) (ix1 a) (by
    rw [Shape.rowMajor_val_two, Shape.rowMajor_val_one]
    show a.val = a.val * 1 + 0
    omega)).trans ?_
  refine (rowSum_apply _ hr hφ hadd a).trans ?_
  exact Finset.sum_congr rfl fun q _ => congrArg Ideal.exp (hcen q)

end Cert.BlockOps

end
-- ==== Proof.LibRowLogSoftmax.lean ====
/-
  The logarithm of the softmax along the rows of a matrix, read at an index, over arbitrary sizes.

  For a row `z` of extended reals, `rowMax z` is the fold of `max` from `-∞` over its entries and
  `rowLS z j = (z j - rowMax z) - log (∑ q, exp (z q - rowMax z))`. A kernel computes this on a block `[m, n]` by a lane
  maximum (taken once more against `-∞`), a column broadcast, an exponential, a lane sum, a logarithm and a second column
  broadcast; a host program takes the row maximum by a one-axis reduce from `-∞`. Both are read here at an index.
-/
import proofs.«129904_j44736379355209_1_alg».proof.Proof.LibBlockOps
import Idealize.ShloMosaic.PureOps.Reduce

noncomputable section

namespace Cert.RowLogSoftmax

open Idealize.ShloMosaic Idealize.ShloMosaic.ValueIdx Cert.BlockOps

variable {m n : Nat}

/-- The maximum of a row, from `-∞`. -/
def rowMax (z : Fin n → EReal) : EReal := (Finset.univ : Finset (Fin n)).fold max ⊥ z

/-- The logarithm of the softmax of a row, with the row's maximum subtracted first. -/
def rowLS (z : Fin n → EReal) (j : Fin n) : EReal :=
  (z j - rowMax z) - Ideal.log (∑ q : Fin n, Ideal.exp (z q - rowMax z))

/-- A kernel's row maximum of a block — the lane fold from `-∞`, then a `max` with `-∞` — at row `a`. -/
theorem rowMax_apply (Z : FVec Ideal ⟨2, ![m, n]⟩ .f32)
    (hr : (⟨2, ![m, n]⟩ : Shape).Reduces [1] ⟨1, ![m]⟩) (hφ : FKind.Formats .f32)
    (hmax : (0xFF800000#32 : BitVec 32) = FKind.maximumf.neutral .f32 hφ) (a : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 a)
      = rowMax fun q => Z (ix2 a q) := by
  rw [maximumf_apply]
  refine (congrArg (max _) (Ideal.multiReduction_maximumf_single Z _ hr hφ hmax (ix1 a))).trans ?_
  have hfold : (Finset.univ : Finset (Fin n)).fold max (Ideal.ofBits .f32 0xFF800000#32)
      (fun q : Fin n => Z (hr.lift (ix1 a) q)) = rowMax fun q => Z (ix2 a q) := by
    unfold rowMax
    rw [ofBits_negInf_f32]
    exact congrArg (fun f => Finset.fold max ⊥ f Finset.univ) (funext fun q => congrArg Z (lift_columns hr a q))
  exact (congrArg (max (Ideal.ofBits .f32 0xFF800000#32)) hfold).trans (by rw [ofBits_negInf_f32, max_bot_left])

/-- A host program's row maximum — a one-axis reduce with a maximum body from the constant `-∞` — at row `a`. -/
theorem hostRowMax_apply (X : FVec Ideal ⟨2, ![m, n]⟩ .f32)
    (h' : (⟨2, ![m, n]⟩ : Shape).ReducesTo [1] ⟨1, ![m]⟩) (hr : (⟨2, ![m, n]⟩ : Shape).Reduces [1] ⟨1, ![m]⟩)
    (hu : 0 < (⟨0, ![]⟩ : Shape).numel) (a : Fin m) :
    Host.reduce FloatOps.maximumf X (constant (F := Ideal) (⟨0, ![]⟩ : Shape) .f32 0xFF800000#32) h' hu (ix1 a)
      = rowMax fun q => X (ix2 a q) := by
  rw [Host.reduce_eq_fold_single FloatOps.maximumf X _ h' hr hu]
  show (Finset.univ : Finset (Fin n)).fold max (Ideal.ofBits .f32 0xFF800000#32) (fun q : Fin n => X (hr.lift (ix1 a) q)) = _
  unfold rowMax
  rw [ofBits_negInf_f32]
  exact congrArg (fun f => Finset.fold max ⊥ f Finset.univ) (funext fun q => congrArg X (lift_columns hr a q))

/-- A kernel's logarithm of the softmax of a block at `(a, j)`, computed with the row maximum subtracted first. -/
theorem logSoftmax_rows_apply (Z : FVec Ideal ⟨2, ![m, n]⟩ .f32)
    (hr : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (a : Fin m) (j : Fin n) :
    subf
        (subf Z (broadcastTo ⟨2, ![m, n]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, n]⟩
          (log (shapeCast ⟨2, ![m, 1]⟩
            (multiReduction (F := Ideal) .add [1] ⟨1, ![m]⟩
              (exp (subf Z (broadcastTo ⟨2, ![m, n]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = rowLS (fun q => Z (ix2 a q)) j := by
  have hcen : ∀ q : Fin n,
      subf Z (broadcastTo ⟨2, ![m, n]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 a q)
        = Z (ix2 a q) - rowMax fun q => Z (ix2 a q) := fun q => by
    rw [subf_apply, columnBroadcast_apply, rowMax_apply]
  unfold rowLS
  rw [subf_apply, hcen j, broadcastTo_a1_ab_apply]
  refine congrArg (fun t => Z (ix2 a j) - (rowMax fun q => Z (ix2 a q)) - Ideal.log t) ?_
  refine (shapeCast_apply _ hc (ix2 a (0 : Fin 1)) (ix1 a) (by
    rw [Shape.rowMajor_val_two, Shape.rowMajor_val_one]
    show a.val = a.val * 1 + 0
    omega)).trans ?_
  refine (rowSum_apply _ hr hφ hadd a).trans ?_
  exact Finset.sum_congr rfl fun q _ => congrArg Ideal.exp (hcen q)

end Cert.RowLogSoftmax

end
-- ==== Proof.Region2.lean ====
/-
  Region 2 of the idealized kernel: bias and the logarithm of the softmax along the rows.

  The third pallas_call takes ten blocks of 5000 rows of a [50000, 16] array, adds a one-row bias to every row and takes
  the logarithm of the softmax of each row (the row's maximum subtracted first). Whatever the buffers hold when the region
  is entered, the result array ends holding, at `(P, q)`, `rowLS (fun j => A (P, j) + b (0, j)) q`.
-/
import proofs.«129904_j44736379355209_1_alg».proof.Proof.Gen.KernelIdeal.Frame
import proofs.«129904_j44736379355209_1_alg».proof.Proof.LibRowLogSoftmax
import proofs.«129904_j44736379355209_1_alg».proof.Proof.LibRepeat
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.RowLogSoftmax

variable (V : (c : Dev nD) → (b : Ref sig .tc) → Buf (Elt Ideal) ((c : Thread nD τ).loc b))

theorem hz : (![0, 0] : Fin 2 → Nat) = fun _ => 0 := funext fun a => by fin_cases a <;> rfl

/-- Bias and row-wise logarithm of the softmax, entry by entry: a [50000, 16] array and a [1, 16] bias row. -/
def lsm (A : S50000x16.Idx → EReal) (B : S1x16.Idx → EReal) : S50000x16.Idx → EReal :=
  fun i => rowLS (fun j : Fin 16 => A (ix2 (⟨(i 0).val, (i 0).isLt⟩ : Fin 50000) j) + B (ix2 (0 : Fin 1) j))
    (⟨(i 1).val, (i 1).isLt⟩ : Fin 16)

/-- The body's stored value at `(p, q)` of a block. -/
theorem pay_apply (x0 : Vec Ideal S5000x16 .f32) (x1 : Vec Ideal S1x16 .f32) (p : Fin 5000) (q : Fin 16) :
    k2_pay1 x0 x1 (ix2 p q) = rowLS (fun j : Fin 16 => x0 (ix2 p j) + x1 (ix2 (0 : Fin 1) j)) q := by
  unfold k2_pay1
  refine (logSoftmax_rows_apply _ reduces_S5000x16_S5000 (.inl rfl) rfl rfl shapeCasts_S5000_S5000x1
    broadcasts_S5000x1_S5000x16 p q).trans ?_
  refine congrArg (fun z => rowLS z q) (funext fun j => ?_)
  rw [addf_apply, shapeCast_self, shapeCast_self, Cert.Lib.Repeat.rowRepeat_apply]

/-- The printed index maps over the grid: the row blocks of the input and of the output move together, the bias row's
    block and every column block stay at 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of `lsm` of the two arrays the region finds. -/
theorem flushed_eq (c : Dev nD) (t : Fin cfg2.N) :
    (dat2 V c).flushed 2 t = ((cfg2.win 2).blk t).view.read (Elt Ideal) (lsm (V c main_v58) (V c main_v59)) := by
  show (cfg2.win 2).cut (grid2.coords t) ((dat2 V c).after 2 t) = _
  rw [after2_2]
  unfold out2_2
  rw [View.canon_unit_zero hz]
  simp only [View.ld_unit_zero (S := S5000x16) hz, View.ld_unit_zero (S := S1x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k2_pay1 (iblk2 V c 0 t) (iblk2 V c 1 t) (ix2 p q)
    = lsm (V c main_v58) (V c main_v59) (((cfg2.win 2).blk t).view.emb (ix2 p q))
  refine (pay_apply (iblk2 V c 0 t) (iblk2 V c 1 t) p q).trans ?_
  unfold lsm
  have hq : (⟨((((cfg2.win 2).blk t).view.emb (ix2 p q)) 1).val, ((((cfg2.win 2).blk t).view.emb (ix2 p q)) 1).isLt⟩ : Fin 16) = q :=
    Fin.ext (by show win2_2.index t (1 : Fin 2) * 16 + 1 * q.val = q.val; omega)
  rw [hq]
  refine congrArg (fun z => rowLS z q) (funext fun k => ?_)
  have h0 : iblk2 V c 0 t (ix2 p k) = V c main_v58 (ix2 (⟨((((cfg2.win 2).blk t).view.emb (ix2 p q)) 0).val, ((((cfg2.win 2).blk t).view.emb (ix2 p q)) 0).isLt⟩ : Fin 50000) k) := by
    unfold iblk2
    rw [View.read_apply]
    show V c main_v58 (((cfg2.win 0).blk t).view.emb (ix2 p k)) = V c main_v58 _
    congr 1
    funext a
    apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * k.val = k.val; omega
  have h1 : iblk2 V c 1 t (ix2 (0 : Fin 1) k) = V c main_v59 (ix2 (0 : Fin 1) k) := by
    unfold iblk2
    rw [View.read_apply]
    show V c main_v59 (((cfg2.win 1).blk t).view.emb (ix2 (0 : Fin 1) k)) = V c main_v59 _
    congr 1
    funext a
    apply Fin.ext
    match a with
    | ⟨0, _⟩ => show win2_1.index t (0 : Fin 2) * 1 + 1 * 0 = 0; omega
    | ⟨1, _⟩ => show win2_1.index t (1 : Fin 2) * 16 + 1 * k.val = k.val; omega
  rw [h0, h1]

/-- An index of the result array is in point `t`'s block iff each coordinate is in the block's range on its axis. -/
theorem mem_blk (t : Fin cfg2.N) (i : S50000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v60).slice (win2_2.rect t)).set ↔ _
  rw [View.set_slice_whole, Rect.mem_set_unit]
  exact Iff.rfl

/-- Row `r` of the result lies in the block of the point `r / 5000`: the ten blocks tile the array. -/
theorem cover (i : S50000x16.Idx) :
    ∃ t : Fin cfg2.N, (cfg2.win 2).flush t = true ∧ i ∈ ((cfg2.win 2).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  refine ⟨t, flush2_2 t, ?_⟩
  rw [mem_blk]
  obtain ⟨e0, e1, e2, e3, e4, e5⟩ := idx_facts t
  have ht : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The result array after the region: `lsm` of the two arrays the region finds in its input windows. -/
theorem final (c : Dev nD) : (dat2 V c).arrAt 2 cfg2.N = lsm (V c main_v58) (V c main_v59) :=
  (dat2 V c).arrAt_eq_of_cover 2 (lsm (V c main_v58) (V c main_v59)) (fun t _ => flushed_eq V c t) cover

end Cert.KernelIdeal.Region2

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostK.lean ====
/-
  The host stretches of the idealized kernel, read in the vocabulary of the reference's stages.

  Between its three regions the kernel's program runs the same host operations as the reference: the edge list with the
  self-loops appended (source and target indices), the degree by a scatter-add of ones, its inverse square root where
  positive, the per-edge weight `dinv[s] · dinv[d]`, and, per layer, the gather of the source rows, their scaling by the edge
  weight and the scatter-add into the target rows. Each stretch is read here from ANY buffer contents `W`: what it writes, as
  the reference's stage of the same name when the buffers it reads hold the reference's stages; what it leaves alone.
-/
import proofs.«129904_j44736379355209_1_alg».proof.Proof.Gen.KernelIdeal.Launch
import proofs.«129904_j44736379355209_1_alg».proof.Proof.RefRead
import proofs.«129904_j44736379355209_1_alg».proof.Proof.LibFoldRead

set_option maxRecDepth 16384

noncomputable section

open Idealize.ShloMosaic Idealize.ShloMosaic.TcCoe Idealize.SL.Sem Idealize.ShloMosaic.StableHlo

namespace Cert.KernelIdeal.HostK

open Cert.KernelIdeal Cert.KernelIdeal.Gen
open Cert.ReferenceIdeal.ReadP

variable (W : Valuation τ sig (Elt Ideal))

/-! ## The first stretch: the index lists, the degree, its comparison with zero and its inverse square root -/

theorem s0_v5 : after hostOps0 W (Proc.devRef .tc main_v5) = val_main_v6 (F := Ideal) (W (Proc.devRef .tc main_arg1)) := by
  simp only [hostOps0]; fold_results; rfl
theorem s0_v6 : after hostOps0 W (Proc.devRef .tc main_v6) = val_main_v7 (F := Ideal) (W (Proc.devRef .tc main_arg1)) := by
  simp only [hostOps0]; fold_results; rfl
theorem s0_v12 : after hostOps0 W (Proc.devRef .tc main_v12) = val_main_v13 (F := Ideal) (W (Proc.devRef .tc main_arg1)) := by
  simp only [hostOps0]; fold_results; rfl
theorem s0_v13 : after hostOps0 W (Proc.devRef .tc main_v13) = val_main_v14 (F := Ideal) (W (Proc.devRef .tc main_arg1)) := by
  simp only [hostOps0]; fold_results; rfl
theorem s0_cst_2 : after hostOps0 W (Proc.devRef .tc main_cst_2) = val_main_cst_2 (F := Ideal) := by
  simp only [hostOps0]; fold_results; rfl
theorem s0_arg0 : after hostOps0 W (Proc.devRef .tc main_arg0) = W (Proc.devRef .tc main_arg0) := by
  simp only [hostOps0]; fold_results
theorem s0_arg1 : after hostOps0 W (Proc.devRef .tc main_arg1) = W (Proc.devRef .tc main_arg1) := by
  simp only [hostOps0]; fold_results
theorem s0_arg2 : after hostOps0 W (Proc.devRef .tc main_arg2) = W (Proc.devRef .tc main_arg2) := by
  simp only [hostOps0]; fold_results
theorem s0_arg3 : after hostOps0 W (Proc.devRef .tc main_arg3) = W (Proc.devRef .tc main_arg3) := by
  simp only [hostOps0]; fold_results
theorem s0_arg4 : after hostOps0 W (Proc.devRef .tc main_arg4) = W (Proc.devRef .tc main_arg4) := by
  simp only [hostOps0]; fold_results
theorem s0_arg5 : after hostOps0 W (Proc.devRef .tc main_arg5) = W (Proc.devRef .tc main_arg5) := by
  simp only [hostOps0]; fold_results

/-! ## The second stretch: the inverse square root kept where the degree is positive, zero elsewhere -/

theorem s01_v14 (x1 : (⟨Cert.ReferenceIdeal.S2x1600000, .i32⟩ : BufTy).Contents (Elt Ideal))
    (h12 : W (Proc.devRef .tc main_v12) = val_main_v13 (F := Ideal) x1) (h13 : W (Proc.devRef .tc main_v13) = val_main_v14 (F := Ideal) x1)
    (hc : W (Proc.devRef .tc main_cst_2) = val_main_cst_2 (F := Ideal)) :
    after hostOps0_1 W (Proc.devRef .tc main_v14) = val_main_v15 (F := Ideal) x1 := by
  simp only [hostOps0_1]; after_results_simp
  simp only [TRef.toBuf, TRef.ofBuf, cast_eq, id_eq]
  rw [h12, h13, hc]
  rfl
theorem s01_v5 : after hostOps0_1 W (Proc.devRef .tc main_v5) = W (Proc.devRef .tc main_v5) := by
  simp only [hostOps0_1]; after_results_simp
theorem s01_v6 : after hostOps0_1 W (Proc.devRef .tc main_v6) = W (Proc.devRef .tc main_v6) := by
  simp only [hostOps0_1]; after_results_simp
theorem s01_arg0 : after hostOps0_1 W (Proc.devRef .tc main_arg0) = W (Proc.devRef .tc main_arg0) := by
  simp only [hostOps0_1]; after_results_simp
theorem s01_arg1 : after hostOps0_1 W (Proc.devRef .tc main_arg1) = W (Proc.devRef .tc main_arg1) := by
  simp only [hostOps0_1]; after_results_simp
theorem s01_arg2 : after hostOps0_1 W (Proc.devRef .tc main_arg2) = W (Proc.devRef .tc main_arg2) := by
  simp only [hostOps0_1]; after_results_simp
theorem s01_arg3 : after hostOps0_1 W (Proc.devRef .tc main_arg3) = W (Proc.devRef .tc main_arg3) := by
  simp only [hostOps0_1]; after_results_simp
theorem s01_arg4 : after hostOps0_1 W (Proc.devRef .tc main_arg4) = W (Proc.devRef .tc main_arg4) := by
  simp only [hostOps0_1]; after_results_simp
theorem s01_arg5 : after hostOps0_1 W (Proc.devRef .tc main_arg5) = W (Proc.devRef .tc main_arg5) := by
  simp only [hostOps0_1]; after_results_simp

/-! ## The third stretch: the per-edge weight, the product of the two gathered inverse square roots -/

theorem s02_v29 (x1 : (⟨Cert.ReferenceIdeal.S2x1600000, .i32⟩ : BufTy).Contents (Elt Ideal))
    (h14 : W (Proc.devRef .tc main_v14) = val_main_v15 (F := Ideal) x1) (h5 : W (Proc.devRef .tc main_v5) = val_main_v6 (F := Ideal) x1)
    (h6 : W (Proc.devRef .tc main_v6) = val_main_v7 (F := Ideal) x1) :
    after hostOps0_2 W (Proc.devRef .tc main_v29) = val_main_v30 (F := Ideal) x1 := by
  simp only [hostOps0_2]; after_results_simp
  rw [h14, h5, h6]
  rfl
theorem s02_v5 : after hostOps0_2 W (Proc.devRef .tc main_v5) = W (Proc.devRef .tc main_v5) := by
  simp only [hostOps0_2]; after_results_simp
theorem s02_v6 : after hostOps0_2 W (Proc.devRef .tc main_v6) = W (Proc.devRef .tc main_v6) := by
  simp only [hostOps0_2]; after_results_simp
theorem s02_arg0 : after hostOps0_2 W (Proc.devRef .tc main_arg0) = W (Proc.devRef .tc main_arg0) := by
  simp only [hostOps0_2]; after_results_simp
theorem s02_arg1 : after hostOps0_2 W (Proc.devRef .tc main_arg1) = W (Proc.devRef .tc main_arg1) := by
  simp only [hostOps0_2]; after_results_simp
theorem s02_arg2 : after hostOps0_2 W (Proc.devRef .tc main_arg2) = W (Proc.devRef .tc main_arg2) := by
  simp only [hostOps0_2]; after_results_simp
theorem s02_arg3 : after hostOps0_2 W (Proc.devRef .tc main_arg3) = W (Proc.devRef .tc main_arg3) := by
  simp only [hostOps0_2]; after_results_simp
theorem s02_arg4 : after hostOps0_2 W (Proc.devRef .tc main_arg4) = W (Proc.devRef .tc main_arg4) := by
  simp only [hostOps0_2]; after_results_simp
theorem s02_arg5 : after hostOps0_2 W (Proc.devRef .tc main_arg5) = W (Proc.devRef .tc main_arg5) := by
  simp only [hostOps0_2]; after_results_simp

/-! ## The stretch between regions 0 and 1: the first layer's aggregation, and the bias as one row -/

theorem s1_v43 (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal))
    (h29 : W (Proc.devRef .tc main_v29) = val_main_v30 (F := Ideal) x1) (h5 : W (Proc.devRef .tc main_v5) = val_main_v6 (F := Ideal) x1)
    (h6 : W (Proc.devRef .tc main_v6) = val_main_v7 (F := Ideal) x1) (h30 : W (Proc.devRef .tc main_v30) = val_main_v4 (F := Ideal) x0 x2) :
    after hostOps1 W (Proc.devRef .tc main_v43) = val_main_v43 (F := Ideal) x0 x1 x2 := by
  simp only [hostOps1]; after_results_simp
  rw [h29, h5, h6, h30]
  rfl
theorem s1_v44 : after hostOps1 W (Proc.devRef .tc main_v44)
    = shapeCast S1x64 (W (Proc.devRef .tc main_arg3) : S64.Idx → EReal) shapeCasts_S64_S1x64 := by
  simp only [hostOps1]; after_results_simp; rfl
theorem s1_v29 : after hostOps1 W (Proc.devRef .tc main_v29) = W (Proc.devRef .tc main_v29) := by
  simp only [hostOps1]; after_results_simp
theorem s1_v5 : after hostOps1 W (Proc.devRef .tc main_v5) = W (Proc.devRef .tc main_v5) := by
  simp only [hostOps1]; after_results_simp
theorem s1_v6 : after hostOps1 W (Proc.devRef .tc main_v6) = W (Proc.devRef .tc main_v6) := by
  simp only [hostOps1]; after_results_simp
theorem s1_arg0 : after hostOps1 W (Proc.devRef .tc main_arg0) = W (Proc.devRef .tc main_arg0) := by
  simp only [hostOps1]; after_results_simp
theorem s1_arg1 : after hostOps1 W (Proc.devRef .tc main_arg1) = W (Proc.devRef .tc main_arg1) := by
  simp only [hostOps1]; after_results_simp
theorem s1_arg2 : after hostOps1 W (Proc.devRef .tc main_arg2) = W (Proc.devRef .tc main_arg2) := by
  simp only [hostOps1]; after_results_simp
theorem s1_arg3 : after hostOps1 W (Proc.devRef .tc main_arg3) = W (Proc.devRef .tc main_arg3) := by
  simp only [hostOps1]; after_results_simp
theorem s1_arg4 : after hostOps1 W (Proc.devRef .tc main_arg4) = W (Proc.devRef .tc main_arg4) := by
  simp only [hostOps1]; after_results_simp
theorem s1_arg5 : after hostOps1 W (Proc.devRef .tc main_arg5) = W (Proc.devRef .tc main_arg5) := by
  simp only [hostOps1]; after_results_simp

/-! ## The stretch between regions 1 and 2: the second layer's aggregation, and the bias as one row -/

theorem s2_v58 (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x16, .f32⟩ : BufTy).Contents (Elt Ideal))
    (h29 : W (Proc.devRef .tc main_v29) = val_main_v74 (F := Ideal) x1) (h5 : W (Proc.devRef .tc main_v5) = val_main_v50 (F := Ideal) x1)
    (h6 : W (Proc.devRef .tc main_v6) = val_main_v51 (F := Ideal) x1)
    (h45 : W (Proc.devRef .tc main_v45) = val_main_v48 (F := Ideal) x0 x1 x2 x3 x4) :
    after hostOps2 W (Proc.devRef .tc main_v58) = val_main_v87 (F := Ideal) x0 x1 x2 x3 x4 := by
  simp only [hostOps2]; after_results_simp
  rw [h29, h5, h6, h45]
  rfl
theorem s2_v59 : after hostOps2 W (Proc.devRef .tc main_v59)
    = shapeCast S1x16 (W (Proc.devRef .tc main_arg5) : S16.Idx → EReal) shapeCasts_S16_S1x16 := by
  simp only [hostOps2]; after_results_simp; rfl

end Cert.KernelIdeal.HostK

end
-- ==== Proof.RefStages.lean ====
/-
  The reference's three dense stages, read at an index.

  Of the reference's stages three are not edge-indexed: the first product `x · W1`; the second layer's input
  `max (agg1 + b1) 0 · W2`; and the result, the logarithm of the softmax along the rows of `agg2 + b2`. Each is read here at
  `(P, q)` in the form in which the kernel's regions compute it. Also: the reference computes the per-edge weight and the
  two index lists twice, once per layer; the second copies are the first.
-/
import proofs.«129904_j44736379355209_1_alg».proof.Proof.RefRead
import proofs.«129904_j44736379355209_1_alg».proof.Proof.LibRowLogSoftmax

set_option maxRecDepth 16384

noncomputable section

open Idealize.ShloMosaic Idealize.ShloMosaic.ValueIdx

namespace Cert.ReferenceIdeal.Stages

open Cert.ReferenceIdeal Cert.ReferenceIdeal.Gen Cert.ReferenceIdeal.ReadP Cert.RowLogSoftmax

/-! ## The second copies of the edge stages are the first -/

theorem v50_eq (x1 : (⟨S2x1600000, .i32⟩ : BufTy).Contents (Elt Ideal)) : val_main_v50 (F := Ideal) x1 = val_main_v6 (F := Ideal) x1 := rfl
theorem v51_eq (x1 : (⟨S2x1600000, .i32⟩ : BufTy).Contents (Elt Ideal)) : val_main_v51 (F := Ideal) x1 = val_main_v7 (F := Ideal) x1 := rfl
theorem v59_eq (x1 : (⟨S2x1600000, .i32⟩ : BufTy).Contents (Elt Ideal)) : val_main_v59 (F := Ideal) x1 = val_main_v15 (F := Ideal) x1 := rfl
theorem v74_eq (x1 : (⟨S2x1600000, .i32⟩ : BufTy).Contents (Elt Ideal)) : val_main_v74 (F := Ideal) x1 = val_main_v30 (F := Ideal) x1 := by
  unfold val_main_v74 val_main_v30 val_main_v66 val_main_v22 val_main_v73 val_main_v29
  rw [v59_eq]
  rfl

/-! ## The first product -/

theorem v4_apply (x0 : (⟨S50000x64, .f32⟩ : BufTy).Contents (Elt Ideal)) (x2 : (⟨S64x64, .f32⟩ : BufTy).Contents (Elt Ideal)) (P : Fin 50000) (q : Fin 64) :
    val_main_v4 (F := Ideal) x0 x2 (ix2 P q) = ∑ k : Fin 64, x0 (ix2 P k) * x2 (ix2 k q) := by
  rw [val_main_v4_apply]
  refine Finset.sum_congr rfl fun k _ => ?_
  have el : lidx_main_v4 (ix2 P q) k = ix2 P k := funext fun a => Fin.ext (by
    match a with
    | ⟨0, _⟩ => rfl
    | ⟨1, _⟩ => rfl)
  have er : ridx_main_v4 (ix2 P q) k = ix2 k q := funext fun a => Fin.ext (by
    match a with
    | ⟨0, _⟩ => rfl
    | ⟨1, _⟩ => rfl)
  rw [el, er]

/-! ## The second layer's input times its weight -/

theorem v48_apply (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (P : Fin 50000) (q : Fin 16) :
    val_main_v48 (F := Ideal) x0 x1 x2 x3 x4 (ix2 P q)
      = ∑ k : Fin 64, max (val_main_v43 (F := Ideal) x0 x1 x2 (ix2 P k) + x3 (ix1 k)) (Ideal.ofBits .f32 0x00000000#32)
          * x4 (ix2 k q) := by
  rw [val_main_v48_apply]
  refine Finset.sum_congr rfl fun k _ => ?_
  have el : lidx_main_v48 (ix2 P q) k = ix2 P k := funext fun a => Fin.ext (by
    match a with
    | ⟨0, _⟩ => rfl
    | ⟨1, _⟩ => rfl)
  have er : ridx_main_v48 (ix2 P q) k = ix2 k q := funext fun a => Fin.ext (by
    match a with
    | ⟨0, _⟩ => rfl
    | ⟨1, _⟩ => rfl)
  have eb : idx_main_v44 (idx_main_v45 (ix2 P k)) = ix1 k := funext fun a => Fin.ext (by
    match a with
    | ⟨0, _⟩ => rfl)
  rw [el, er, val_main_v47_apply, val_main_v46_apply, val_main_v45_apply, val_main_v44_apply, eb,
    val_main_call1_v0_apply, val_main_call1_cst_apply]
  rfl

/-! ## The result -/

theorem v91_apply (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (P : Fin 50000) (q : Fin 16) :
    val_main_v91 (F := Ideal) x0 x1 x2 x3 x4 x5 (ix2 P q)
      = rowLS (fun j : Fin 16 => val_main_v87 (F := Ideal) x0 x1 x2 x3 x4 (ix2 P j) + x5 (ix1 j)) q := by
  have hz : ∀ j : Fin 16, val_main_v90 (F := Ideal) x0 x1 x2 x3 x4 x5 (ix2 P j)
      = val_main_v87 (F := Ideal) x0 x1 x2 x3 x4 (ix2 P j) + x5 (ix1 j) := fun j => by
    have eb : idx_main_v88 (idx_main_v89 (ix2 P j)) = ix1 j := funext fun a => Fin.ext (by
      match a with
      | ⟨0, _⟩ => rfl)
    rw [val_main_v90_apply, val_main_v89_apply, val_main_v88_apply, eb]
    rfl
  have hZ : (fun j : Fin 16 => val_main_v90 (F := Ideal) x0 x1 x2 x3 x4 x5 (ix2 P j))
      = fun j : Fin 16 => val_main_v87 (F := Ideal) x0 x1 x2 x3 x4 (ix2 P j) + x5 (ix1 j) := funext hz
  -- the row's maximum: the reduce from `-∞`, once more against `-∞`
  have hM : val_main_call3_v2 (F := Ideal) x0 x1 x2 x3 x4 x5 (ix1 P)
      = rowMax fun j : Fin 16 => val_main_v87 (F := Ideal) x0 x1 x2 x3 x4 (ix2 P j) + x5 (ix1 j) := by
    rw [val_main_call3_v2_apply, val_main_call3_v1_apply, val_main_call3_cst_0_apply]
    unfold val_main_call3_v0 val_main_call3_cst
    refine (congrArg (max (Ideal.ofBits .f32 0xFF800000#32))
      (hostRowMax_apply (val_main_v90 (F := Ideal) x0 x1 x2 x3 x4 x5) reducesTo_S50000x16_S50000_d1 (by decide) h_S_ P)).trans ?_
    rw [Cert.BlockOps.ofBits_negInf_f32, max_bot_left, hZ]
  -- an entry with the row's maximum subtracted
  have hcen : ∀ j : Fin 16, val_main_call3_v5 (F := Ideal) x0 x1 x2 x3 x4 x5 (ix2 P j)
      = (val_main_v87 (F := Ideal) x0 x1 x2 x3 x4 (ix2 P j) + x5 (ix1 j))
        - rowMax fun j : Fin 16 => val_main_v87 (F := Ideal) x0 x1 x2 x3 x4 (ix2 P j) + x5 (ix1 j) := fun j => by
    have e1 : idx_main_call3_v3 (idx_main_call3_v4 (ix2 P j)) = ix1 P := funext fun a => Fin.ext (by
      match a with
      | ⟨0, _⟩ => rfl)
    rw [val_main_call3_v5_apply, val_main_call3_v4_apply, val_main_call3_v3_apply, e1, hM, hz j]
    rfl
  have e2 : idx_main_call3_v8 (idx_main_call3_v10 (ix2 P q)) = ix1 P := funext fun a => Fin.ext (by
    match a with
    | ⟨0, _⟩ => rfl)
  have hsum : ∑ k : Fin 16, val_main_call3_v6 (F := Ideal) x0 x1 x2 x3 x4 x5 (idx_main_call3_v7 (ix1 P) k)
      = ∑ k : Fin 16, Ideal.exp ((val_main_v87 (F := Ideal) x0 x1 x2 x3 x4 (ix2 P k) + x5 (ix1 k))
          - rowMax fun j : Fin 16 => val_main_v87 (F := Ideal) x0 x1 x2 x3 x4 (ix2 P j) + x5 (ix1 j)) :=
    Finset.sum_congr rfl fun k _ => by
      have e3 : idx_main_call3_v7 (ix1 P) k = ix2 P k := funext fun a => Fin.ext (by
        match a with
        | ⟨0, _⟩ => rfl
        | ⟨1, _⟩ => rfl)
      rw [e3, val_main_call3_v6_apply, hcen k]
      exact Ideal.hostUnary_exp_def _
  have hlog : val_main_call3_v10 (F := Ideal) x0 x1 x2 x3 x4 x5 (ix2 P q)
      = Ideal.log (∑ k : Fin 16, Ideal.exp ((val_main_v87 (F := Ideal) x0 x1 x2 x3 x4 (ix2 P k) + x5 (ix1 k))
          - rowMax fun j : Fin 16 => val_main_v87 (F := Ideal) x0 x1 x2 x3 x4 (ix2 P j) + x5 (ix1 j))) := by
    rw [val_main_call3_v10_apply, val_main_call3_v9_apply, val_main_call3_v8_apply, e2]
    rw [val_main_call3_v7_apply, val_main_call3_cst_1_apply, hsum]
    refine (Ideal.hostUnary_log_def _).trans ?_
    refine congrArg Ideal.log ?_
    show Ideal.ofBits .f32 0x00000000#32 + _ = _
    rw [Ideal.ofBits_zero_f32, zero_add]
  rw [val_main_v91_apply, hcen q, hlog]
  rfl

end Cert.ReferenceIdeal.Stages

end
-- ==== Proof.KernelValue.lean ====
/-
  The idealized kernel's result, stage by stage, in the reference's vocabulary.

  The kernel's run passes through nine buffer contents: the launch memory, three host stretches, and then alternately a
  region and a host stretch. Followed through them: the edge stages (index lists, per-edge weight) are the reference's;
  region 0 leaves the reference's first product; the stretch after it the first aggregation; region 1 the second layer's
  product (bias, rectifier and product agree entry by entry); the stretch after it the second aggregation; region 2 the
  reference's result, the logarithm of the softmax of the biased second aggregation, entry by entry.
-/
import proofs.«129904_j44736379355209_1_alg».proof.Proof.Gen.KernelIdeal.Frame
import proofs.«129904_j44736379355209_1_alg».proof.Proof.FrameResult
import proofs.«129904_j44736379355209_1_alg».proof.Proof.Region0
import proofs.«129904_j44736379355209_1_alg».proof.Proof.Region1
import proofs.«129904_j44736379355209_1_alg».proof.Proof.Region2
import proofs.«129904_j44736379355209_1_alg».proof.Proof.HostK
import proofs.«129904_j44736379355209_1_alg».proof.Proof.RefStages

set_option maxRecDepth 16384

noncomputable section

open Idealize.ShloMosaic Idealize.ShloMosaic.TcCoe Idealize.SL.Sem Idealize.ShloMosaic.ValueIdx Idealize.ShloMosaic.StableHlo

namespace Cert.KernelIdeal.KValue

open Cert.KernelIdeal Cert.KernelIdeal.Gen Cert.ReferenceIdeal.ReadP Cert.RowLogSoftmax

variable (m : (ℓ : Loc nD τ sig) → Buf (Elt Ideal) ℓ) (ρ : Dev nD → PrngReg) (c : Dev nD)

/-- The six argument arrays at launch, typed as the reference's stages take them. -/
abbrev a0 : (⟨Cert.ReferenceIdeal.S50000x64, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S64x64, .f32⟩ : BufTy).Contents (Elt Ideal) := m ((c : Thread nD τ).loc main_arg2)
abbrev a3 : (⟨Cert.ReferenceIdeal.S64, .f32⟩ : BufTy).Contents (Elt Ideal) := m ((c : Thread nD τ).loc main_arg3)
abbrev a4 : (⟨Cert.ReferenceIdeal.S64x16, .f32⟩ : BufTy).Contents (Elt Ideal) := m ((c : Thread nD τ).loc main_arg4)
abbrev a5 : (⟨Cert.ReferenceIdeal.S16, .f32⟩ : BufTy).Contents (Elt Ideal) := m ((c : Thread nD τ).loc main_arg5)

/-- A vector cast to one row, read in that row. -/
theorem oneRow_apply {n : Nat} {α : Type} (x : (⟨1, ![n]⟩ : Shape).Idx → α) (h : (⟨1, ![n]⟩ : Shape).ShapeCasts ⟨2, ![1, n]⟩)
    (k : Fin n) : shapeCast ⟨2, ![1, n]⟩ x h (ix2 (0 : Fin 1) k) = x (ix1 k) :=
  shapeCast_apply x h (ix2 (0 : Fin 1) k) (ix1 k) (by
    rw [Shape.rowMajor_val_two, Shape.rowMajor_val_one]; show k.val = 0 * n + k.val; omega)

/-! ## Before region 0 -/

theorem W3_v29 : W3 m ρ c (Proc.devRef .tc main_v29) = val_main_v30 (F := Ideal) (a1 m c) := by
  have h12 : W1 m ρ c (Proc.devRef .tc main_v12) = val_main_v13 (F := Ideal) (a1 m c) := HostK.s0_v12 (W0 m ρ c)
  have h13 : W1 m ρ c (Proc.devRef .tc main_v13) = val_main_v14 (F := Ideal) (a1 m c) := HostK.s0_v13 (W0 m ρ c)
  have hc : W1 m ρ c (Proc.devRef .tc main_cst_2) = val_main_cst_2 (F := Ideal) := HostK.s0_cst_2 (W0 m ρ c)
  have h14 : W2 m ρ c (Proc.devRef .tc main_v14) = val_main_v15 (F := Ideal) (a1 m c) := HostK.s01_v14 (W1 m ρ c) _ h12 h13 hc
  have h5 : W2 m ρ c (Proc.devRef .tc main_v5) = val_main_v6 (F := Ideal) (a1 m c) := (HostK.s01_v5 (W1 m ρ c)).trans (HostK.s0_v5 (W0 m ρ c))
  have h6 : W2 m ρ c (Proc.devRef .tc main_v6) = val_main_v7 (F := Ideal) (a1 m c) := (HostK.s01_v6 (W1 m ρ c)).trans (HostK.s0_v6 (W0 m ρ c))
  exact HostK.s02_v29 (W2 m ρ c) _ h14 h5 h6
theorem W3_v5 : W3 m ρ c (Proc.devRef .tc main_v5) = val_main_v6 (F := Ideal) (a1 m c) :=
  (HostK.s02_v5 (W2 m ρ c)).trans ((HostK.s01_v5 (W1 m ρ c)).trans (HostK.s0_v5 (W0 m ρ c)))
theorem W3_v6 : W3 m ρ c (Proc.devRef .tc main_v6) = val_main_v7 (F := Ideal) (a1 m c) :=
  (HostK.s02_v6 (W2 m ρ c)).trans ((HostK.s01_v6 (W1 m ρ c)).trans (HostK.s0_v6 (W0 m ρ c)))
theorem W3_arg0 : W3 m ρ c (Proc.devRef .tc main_arg0) = a0 m c :=
  (HostK.s02_arg0 (W2 m ρ c)).trans ((HostK.s01_arg0 (W1 m ρ c)).trans (HostK.s0_arg0 (W0 m ρ c)))
theorem W3_arg2 : W3 m ρ c (Proc.devRef .tc main_arg2) = a2 m c :=
  (HostK.s02_arg2 (W2 m ρ c)).trans ((HostK.s01_arg2 (W1 m ρ c)).trans (HostK.s0_arg2 (W0 m ρ c)))
theorem W3_arg3 : W3 m ρ c (Proc.devRef .tc main_arg3) = a3 m c :=
  (HostK.s02_arg3 (W2 m ρ c)).trans ((HostK.s01_arg3 (W1 m ρ c)).trans (HostK.s0_arg3 (W0 m ρ c)))
theorem W3_arg4 : W3 m ρ c (Proc.devRef .tc main_arg4) = a4 m c :=
  (HostK.s02_arg4 (W2 m ρ c)).trans ((HostK.s01_arg4 (W1 m ρ c)).trans (HostK.s0_arg4 (W0 m ρ c)))
theorem W3_arg5 : W3 m ρ c (Proc.devRef .tc main_arg5) = a5 m c :=
  (HostK.s02_arg5 (W2 m ρ c)).trans ((HostK.s01_arg5 (W1 m ρ c)).trans (HostK.s0_arg5 (W0 m ρ c)))

/-! ## Region 0 and the stretch after it -/

theorem W4_v30 : W4 m ρ c (Proc.devRef .tc main_v30) = val_main_v4 (F := Ideal) (a0 m c) (a2 m c) := by
  refine (W4_arr m ρ c 2).trans ?_
  have e0 : V3 m ρ c main_arg0 = a0 m c := W3_arg0 m ρ c
  have e2 : V3 m ρ c main_arg2 = a2 m c := W3_arg2 m ρ c
  rw [Region0.final (V3 m ρ) c, e0, e2]
  funext i
  obtain ⟨P, q, rfl⟩ : ∃ (P : Fin 50000) (q : Fin 64), i = ix2 P q := ⟨i 0, i 1, eq_ix2 i⟩
  rw [Cert.ReferenceIdeal.Stages.v4_apply]
  rfl
theorem W4_v29 : W4 m ρ c (Proc.devRef .tc main_v29) = val_main_v30 (F := Ideal) (a1 m c) :=
  (W4_of_ne m ρ c main_v29 (by decide)).trans (W3_v29 m ρ c)
theorem W4_v5 : W4 m ρ c (Proc.devRef .tc main_v5) = val_main_v6 (F := Ideal) (a1 m c) :=
  (W4_of_ne m ρ c main_v5 (by decide)).trans (W3_v5 m ρ c)
theorem W4_v6 : W4 m ρ c (Proc.devRef .tc main_v6) = val_main_v7 (F := Ideal) (a1 m c) :=
  (W4_of_ne m ρ c main_v6 (by decide)).trans (W3_v6 m ρ c)
theorem W4_arg3 : W4 m ρ c (Proc.devRef .tc main_arg3) = a3 m c :=
  (W4_of_ne m ρ c main_arg3 (by decide)).trans (W3_arg3 m ρ c)
theorem W4_arg4 : W4 m ρ c (Proc.devRef .tc main_arg4) = a4 m c :=
  (W4_of_ne m ρ c main_arg4 (by decide)).trans (W3_arg4 m ρ c)
theorem W4_arg5 : W4 m ρ c (Proc.devRef .tc main_arg5) = a5 m c :=
  (W4_of_ne m ρ c main_arg5 (by decide)).trans (W3_arg5 m ρ c)

theorem W5_v43 : W5 m ρ c (Proc.devRef .tc main_v43) = val_main_v43 (F := Ideal) (a0 m c) (a1 m c) (a2 m c) :=
  HostK.s1_v43 (W4 m ρ c) _ _ _ (W4_v29 m ρ c) (W4_v5 m ρ c) (W4_v6 m ρ c) (W4_v30 m ρ c)
theorem W5_v44 : W5 m ρ c (Proc.devRef .tc main_v44) = shapeCast S1x64 (a3 m c : S64.Idx → EReal) shapeCasts_S64_S1x64 := by
  refine (HostK.s1_v44 (W4 m ρ c)).trans ?_
  rw [W4_arg3]
theorem W5_arg4 : W5 m ρ c (Proc.devRef .tc main_arg4) = a4 m c := (HostK.s1_arg4 (W4 m ρ c)).trans (W4_arg4 m ρ c)
theorem W5_arg5 : W5 m ρ c (Proc.devRef .tc main_arg5) = a5 m c := (HostK.s1_arg5 (W4 m ρ c)).trans (W4_arg5 m ρ c)
theorem W5_v29 : W5 m ρ c (Proc.devRef .tc main_v29) = val_main_v30 (F := Ideal) (a1 m c) := (HostK.s1_v29 (W4 m ρ c)).trans (W4_v29 m ρ c)
theorem W5_v5 : W5 m ρ c (Proc.devRef .tc main_v5) = val_main_v6 (F := Ideal) (a1 m c) := (HostK.s1_v5 (W4 m ρ c)).trans (W4_v5 m ρ c)
theorem W5_v6 : W5 m ρ c (Proc.devRef .tc main_v6) = val_main_v7 (F := Ideal) (a1 m c) := (HostK.s1_v6 (W4 m ρ c)).trans (W4_v6 m ρ c)

/-! ## Region 1 and the stretch after it -/

theorem W6_v45 : W6 m ρ c (Proc.devRef .tc main_v45) = val_main_v48 (F := Ideal) (a0 m c) (a1 m c) (a2 m c) (a3 m c) (a4 m c) := by
  refine (W6_arr m ρ c 3).trans ?_
  have e43 : V5 m ρ c main_v43 = val_main_v43 (F := Ideal) (a0 m c) (a1 m c) (a2 m c) := W5_v43 m ρ c
  have e44 : V5 m ρ c main_v44 = shapeCast S1x64 (a3 m c : S64.Idx → EReal) shapeCasts_S64_S1x64 := W5_v44 m ρ c
  have e4 : V5 m ρ c main_arg4 = a4 m c := W5_arg4 m ρ c
  rw [Region1.final (V5 m ρ) c, e43, e44, e4]
  funext i
  obtain ⟨P, q, rfl⟩ : ∃ (P : Fin 50000) (q : Fin 16), i = ix2 P q := ⟨i 0, i 1, eq_ix2 i⟩
  rw [Cert.ReferenceIdeal.Stages.v48_apply]
  unfold Region1.dense
  refine Finset.sum_congr rfl fun k _ => ?_
  rw [oneRow_apply]
theorem W6_v29 : W6 m ρ c (Proc.devRef .tc main_v29) = val_main_v30 (F := Ideal) (a1 m c) :=
  (W6_of_ne m ρ c main_v29 (by decide)).trans (W5_v29 m ρ c)
theorem W6_v5 : W6 m ρ c (Proc.devRef .tc main_v5) = val_main_v6 (F := Ideal) (a1 m c) :=
  (W6_of_ne m ρ c main_v5 (by decide)).trans (W5_v5 m ρ c)
theorem W6_v6 : W6 m ρ c (Proc.devRef .tc main_v6) = val_main_v7 (F := Ideal) (a1 m c) :=
  (W6_of_ne m ρ c main_v6 (by decide)).trans (W5_v6 m ρ c)
theorem W6_arg5 : W6 m ρ c (Proc.devRef .tc main_arg5) = a5 m c :=
  (W6_of_ne m ρ c main_arg5 (by decide)).trans (W5_arg5 m ρ c)

theorem W7_v58 : W7 m ρ c (Proc.devRef .tc main_v58) = val_main_v87 (F := Ideal) (a0 m c) (a1 m c) (a2 m c) (a3 m c) (a4 m c) :=
  HostK.s2_v58 (W6 m ρ c) _ _ _ _ _ ((W6_v29 m ρ c).trans (Cert.ReferenceIdeal.Stages.v74_eq _).symm)
    ((W6_v5 m ρ c).trans (Cert.ReferenceIdeal.Stages.v50_eq _).symm) ((W6_v6 m ρ c).trans (Cert.ReferenceIdeal.Stages.v51_eq _).symm) (W6_v45 m ρ c)
theorem W7_v59 : W7 m ρ c (Proc.devRef .tc main_v59) = shapeCast S1x16 (a5 m c : S16.Idx → EReal) shapeCasts_S16_S1x16 := by
  refine (HostK.s2_v59 (W6 m ρ c)).trans ?_
  rw [W6_arg5]

/-! ## Region 2: the result -/

theorem W8_v60 : W8 m ρ c (Proc.devRef .tc main_v60)
    = val_main_v91 (F := Ideal) (a0 m c) (a1 m c) (a2 m c) (a3 m c) (a4 m c) (a5 m c) := by
  refine (W8_arr m ρ c 2).trans ?_
  have e58 : V7 m ρ c main_v58 = val_main_v87 (F := Ideal) (a0 m c) (a1 m c) (a2 m c) (a3 m c) (a4 m c) := W7_v58 m ρ c
  have e59 : V7 m ρ c main_v59 = shapeCast S1x16 (a5 m c : S16.Idx → EReal) shapeCasts_S16_S1x16 := W7_v59 m ρ c
  rw [Region2.final (V7 m ρ) c, e58, e59]
  funext i
  obtain ⟨P, q, rfl⟩ : ∃ (P : Fin 50000) (q : Fin 16), i = ix2 P q := ⟨i 0, i 1, eq_ix2 i⟩
  rw [Cert.ReferenceIdeal.Stages.v91_apply]
  unfold Region2.lsm
  refine congrArg (fun z => rowLS z q) (funext fun j => ?_)
  rw [oneRow_apply]

/-! ## The run -/

/-- Every weakly fair execution of the idealized kernel terminates with the result buffer at the reference's last stage
    of the launch arguments, and the arguments as launched. -/
theorem run : θ_run defs (onTc (τ := τ) (main (F := Ideal))) ⟨m, fun _ => 0, ρ⟩ (fun r => ∀ c : Dev nD,
      r.2.mem ((c.tc : Thread nD τ).loc main_v60)
        = val_main_v91 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v60 m ρ c), (h c).2⟩)
    (Cert.KernelIdeal.GenP.frame_result m ρ)

end Cert.KernelIdeal.KValue

end
-- ==== Proof.RefValue.lean ====
/-
  The reference's run, read stage by stage.

  The reference program is a straight line of 134 host operations. Cut into nine consecutive pieces — at the three places
  where jax outlined a function (the two `where`s, the rectifier, the logarithm of the softmax) and around them — each piece
  is read from ANY buffer contents `W`: what it writes is the stage of the same name, as a function of @main's arguments,
  once the buffers it reads hold their stages; what it does not write it leaves alone. Put together: after the whole
  line the result buffer holds `val_main_v91` of the six argument arrays, and the arguments are as they were.
-/
import proofs.«129904_j44736379355209_1_alg».proof.Proof.RefRun
import proofs.«129904_j44736379355209_1_alg».proof.Proof.RefRead
import proofs.«129904_j44736379355209_1_alg».proof.Proof.LibFoldRead

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.RunP Cert.ReferenceIdeal.ReadP

variable {F : FTy → Type} [FloatOps F]

/-- Operations 1 … 19 of @main. -/
abbrev segA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_v5 (iotaInDim S50000 32 0),
    binary main_v1 main_v5 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v5 main_v7 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v8 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32) ]

/-- Operations 20 … 22 of @main. -/
abbrev segB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Operations 23 … 60 of @main. -/
abbrev segC : List (HloOp τ sig (Elt F)) :=
  [ nullary main_c (constantI S_ 32 0#32),
    unary main_c main_v16 (broadcastInDim S1650000 ![] bcast_S_S1650000 : (⟨S_, .i32⟩ : BufTy).Contents (Elt F) → (⟨S1650000, .i32⟩ : BufTy).Contents (Elt F)),
    binary main_v6 main_v16 main_v17 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v18 (broadcastInDim S1650000 ![] bcast_S_S1650000 : (⟨S_, .i32⟩ : BufTy).Contents (Elt F) → (⟨S1650000, .i32⟩ : BufTy).Contents (Elt F)),
    binary main_v6 main_v18 main_v19 (addi : (⟨S1650000, .i32⟩ : BufTy).Contents (Elt F) → (⟨S1650000, .i32⟩ : BufTy).Contents (Elt F) → (⟨S1650000, .i32⟩ : BufTy).Contents (Elt F)),
    ternary main_v17 main_v19 main_v6 main_v20 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v20 main_v21 (broadcastInDim S1650000x1 ![0] bcast_S1650000_S1650000x1_0 : (⟨S1650000, .i32⟩ : BufTy).Contents (Elt F) → (⟨S1650000x1, .i32⟩ : BufTy).Contents (Elt F)),
    binary main_v15 main_v21 main_v22 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v23 (broadcastInDim S1650000 ![] bcast_S_S1650000 : (⟨S_, .i32⟩ : BufTy).Contents (Elt F) → (⟨S1650000, .i32⟩ : BufTy).Contents (Elt F)),
    binary main_v7 main_v23 main_v24 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v25 (broadcastInDim S1650000 ![] bcast_S_S1650000 : (⟨S_, .i32⟩ : BufTy).Contents (Elt F) → (⟨S1650000, .i32⟩ : BufTy).Contents (Elt F)),
    binary main_v7 main_v25 main_v26 (addi : (⟨S1650000, .i32⟩ : BufTy).Contents (Elt F) → (⟨S1650000, .i32⟩ : BufTy).Contents (Elt F) → (⟨S1650000, .i32⟩ : BufTy).Contents (Elt F)),
    ternary main_v24 main_v26 main_v7 main_v27 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v27 main_v28 (broadcastInDim S1650000x1 ![0] bcast_S1650000_S1650000x1_0 : (⟨S1650000, .i32⟩ : BufTy).Contents (Elt F) → (⟨S1650000x1, .i32⟩ : BufTy).Contents (Elt F)),
    binary main_v15 main_v28 main_v29 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v22 main_v29 main_v30 (mulf : (⟨S1650000, .f32⟩ : BufTy).Contents (Elt F) → (⟨S1650000, .f32⟩ : BufTy).Contents (Elt F) → (⟨S1650000, .f32⟩ : BufTy).Contents (Elt F)),
    unary main_v30 main_v31 (broadcastInDim S1650000x1 ![0] bcast_S1650000_S1650000x1_0 : (⟨S1650000, .f32⟩ : BufTy).Contents (Elt F) → (⟨S1650000x1, .f32⟩ : BufTy).Contents (Elt F)),
    nullary main_c_6 (constantI S_ 32 0#32),
    unary main_c_6 main_v32 (broadcastInDim S1650000 ![] bcast_S_S1650000 : (⟨S_, .i32⟩ : BufTy).Contents (Elt F) → (⟨S1650000, .i32⟩ : BufTy).Contents (Elt F)),
    binary main_v6 main_v32 main_v33 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v34 (broadcastInDim S1650000 ![] bcast_S_S1650000 : (⟨S_, .i32⟩ : BufTy).Contents (Elt F) → (⟨S1650000, .i32⟩ : BufTy).Contents (Elt F)),
    binary main_v6 main_v34 main_v35 (addi : (⟨S1650000, .i32⟩ : BufTy).Contents (Elt F) → (⟨S1650000, .i32⟩ : BufTy).Contents (Elt F) → (⟨S1650000, .i32⟩ : BufTy).Contents (Elt F)),
    ternary main_v33 main_v35 main_v6 main_v36 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v36 main_v37 (broadcastInDim S1650000x1 ![0] bcast_S1650000_S1650000x1_0 : (⟨S1650000, .i32⟩ : BufTy).Contents (Elt F) → (⟨S1650000x1, .i32⟩ : BufTy).Contents (Elt F)),
    binary main_v4 main_v37 main_v38 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v31 main_v39 (broadcastInDim S1650000x64 ![0, 1] bcast_S1650000x1_S1650000x64_0_1 : (⟨S1650000x1, .f32⟩ : BufTy).Contents (Elt F) → (⟨S1650000x64, .f32⟩ : BufTy).Contents (Elt F)),
    binary main_v39 main_v38 main_v40 (mulf : (⟨S1650000x64, .f32⟩ : BufTy).Contents (Elt F) → (⟨S1650000x64, .f32⟩ : BufTy).Contents (Elt F) → (⟨S1650000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v7 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

/-- Operations 61 … 63 of @main. -/
abbrev segD : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf ]

/-- Operations 64 … 78 of @main. -/
abbrev segE : List (HloOp τ sig (Elt F)) :=
  [ binary main_v47 main_arg4 main_v48 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    nullary main_v49 (iotaInDim S50000 32 0),
    binary main_v1 main_v49 main_v50 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v49 main_v51 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_9 (constant S_ .f32 0x3F800000#32),
    unary main_cst_9 main_v52 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S1650000x1 ![0] bcast_S1650000_S1650000x1_0 : (⟨S1650000, .i32⟩ : BufTy).Contents (Elt F) → (⟨S1650000x1, .i32⟩ : BufTy).Contents (Elt F)),
    ternary main_v53 main_v54 main_v52 main_v55 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32) ]

/-- Operations 79 … 81 of @main. -/
abbrev segF : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Operations 82 … 119 of @main. -/
abbrev segG : List (HloOp τ sig (Elt F)) :=
  [ nullary main_c_13 (constantI S_ 32 0#32),
    unary main_c_13 main_v60 (broadcastInDim S1650000 ![] bcast_S_S1650000 : (⟨S_, .i32⟩ : BufTy).Contents (Elt F) → (⟨S1650000, .i32⟩ : BufTy).Contents (Elt F)),
    binary main_v50 main_v60 main_v61 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v62 (broadcastInDim S1650000 ![] bcast_S_S1650000 : (⟨S_, .i32⟩ : BufTy).Contents (Elt F) → (⟨S1650000, .i32⟩ : BufTy).Contents (Elt F)),
    binary main_v50 main_v62 main_v63 (addi : (⟨S1650000, .i32⟩ : BufTy).Contents (Elt F) → (⟨S1650000, .i32⟩ : BufTy).Contents (Elt F) → (⟨S1650000, .i32⟩ : BufTy).Contents (Elt F)),
    ternary main_v61 main_v63 main_v50 main_v64 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v64 main_v65 (broadcastInDim S1650000x1 ![0] bcast_S1650000_S1650000x1_0 : (⟨S1650000, .i32⟩ : BufTy).Contents (Elt F) → (⟨S1650000x1, .i32⟩ : BufTy).Contents (Elt F)),
    binary main_v59 main_v65 main_v66 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v67 (broadcastInDim S1650000 ![] bcast_S_S1650000 : (⟨S_, .i32⟩ : BufTy).Contents (Elt F) → (⟨S1650000, .i32⟩ : BufTy).Contents (Elt F)),
    binary main_v51 main_v67 main_v68 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v69 (broadcastInDim S1650000 ![] bcast_S_S1650000 : (⟨S_, .i32⟩ : BufTy).Contents (Elt F) → (⟨S1650000, .i32⟩ : BufTy).Contents (Elt F)),
    binary main_v51 main_v69 main_v70 (addi : (⟨S1650000, .i32⟩ : BufTy).Contents (Elt F) → (⟨S1650000, .i32⟩ : BufTy).Contents (Elt F) → (⟨S1650000, .i32⟩ : BufTy).Contents (Elt F)),
    ternary main_v68 main_v70 main_v51 main_v71 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v71 main_v72 (broadcastInDim S1650000x1 ![0] bcast_S1650000_S1650000x1_0 : (⟨S1650000, .i32⟩ : BufTy).Contents (Elt F) → (⟨S1650000x1, .i32⟩ : BufTy).Contents (Elt F)),
    binary main_v59 main_v72 main_v73 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v66 main_v73 main_v74 (mulf : (⟨S1650000, .f32⟩ : BufTy).Contents (Elt F) → (⟨S1650000, .f32⟩ : BufTy).Contents (Elt F) → (⟨S1650000, .f32⟩ : BufTy).Contents (Elt F)),
    unary main_v74 main_v75 (broadcastInDim S1650000x1 ![0] bcast_S1650000_S1650000x1_0 : (⟨S1650000, .f32⟩ : BufTy).Contents (Elt F) → (⟨S1650000x1, .f32⟩ : BufTy).Contents (Elt F)),
    nullary main_c_17 (constantI S_ 32 0#32),
    unary main_c_17 main_v76 (broadcastInDim S1650000 ![] bcast_S_S1650000 : (⟨S_, .i32⟩ : BufTy).Contents (Elt F) → (⟨S1650000, .i32⟩ : BufTy).Contents (Elt F)),
    binary main_v50 main_v76 main_v77 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v78 (broadcastInDim S1650000 ![] bcast_S_S1650000 : (⟨S_, .i32⟩ : BufTy).Contents (Elt F) → (⟨S1650000, .i32⟩ : BufTy).Contents (Elt F)),
    binary main_v50 main_v78 main_v79 (addi : (⟨S1650000, .i32⟩ : BufTy).Contents (Elt F) → (⟨S1650000, .i32⟩ : BufTy).Contents (Elt F) → (⟨S1650000, .i32⟩ : BufTy).Contents (Elt F)),
    ternary main_v77 main_v79 main_v50 main_v80 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v80 main_v81 (broadcastInDim S1650000x1 ![0] bcast_S1650000_S1650000x1_0 : (⟨S1650000, .i32⟩ : BufTy).Contents (Elt F) → (⟨S1650000x1, .i32⟩ : BufTy).Contents (Elt F)),
    binary main_v48 main_v81 main_v82 ((fun x i => Host.gather gather_S50000x16_S1650000x1_S1650000x16_1_0_n_n_0_1_116 x i) : (⟨S50000x16, .f32⟩ : BufTy).Contents (Elt F) → (⟨S1650000x1, .i32⟩ : BufTy).Contents (Elt F) → (⟨S1650000x16, .f32⟩ : BufTy).Contents (Elt F)),
    unary main_v75 main_v83 (broadcastInDim S1650000x16 ![0, 1] bcast_S1650000x1_S1650000x16_0_1 : (⟨S1650000x1, .f32⟩ : BufTy).Contents (Elt F) → (⟨S1650000x16, .f32⟩ : BufTy).Contents (Elt F)),
    binary main_v83 main_v82 main_v84 (mulf : (⟨S1650000x16, .f32⟩ : BufTy).Contents (Elt F) → (⟨S1650000x16, .f32⟩ : BufTy).Contents (Elt F) → (⟨S1650000x16, .f32⟩ : BufTy).Contents (Elt F)),
    nullary main_cst_19 (constant S_ .f32 0x00000000#32),
    unary main_cst_19 main_v85 (broadcastInDim S50000x16 ![] bcast_S_S50000x16 : (⟨S_, .f32⟩ : BufTy).Contents (Elt F) → (⟨S50000x16, .f32⟩ : BufTy).Contents (Elt F)),
    unary main_v51 main_v86 (broadcastInDim S1650000x1 ![0] bcast_S1650000_S1650000x1_0 : (⟨S1650000, .i32⟩ : BufTy).Contents (Elt F) → (⟨S1650000x1, .i32⟩ : BufTy).Contents (Elt F)),
    ternary main_v85 main_v86 main_v84 main_v87 ((fun x i u => Host.scatterAdd scatter_S50000x16_S1650000x1_S1650000x16_1_0_0_1 x i u) : (⟨S50000x16, .f32⟩ : BufTy).Contents (Elt F) → (⟨S1650000x1, .i32⟩ : BufTy).Contents (Elt F) → (⟨S1650000x16, .f32⟩ : BufTy).Contents (Elt F) → (⟨S50000x16, .f32⟩ : BufTy).Contents (Elt F)),
    unary main_arg5 main_v88 (broadcastInDim S1x16 ![1] bcast_S16_S1x16_1 : (⟨S16, .f32⟩ : BufTy).Contents (Elt F) → (⟨S1x16, .f32⟩ : BufTy).Contents (Elt F)),
    unary main_v88 main_v89 (broadcastInDim S50000x16 ![0, 1] bcast_S1x16_S50000x16_0_1 : (⟨S1x16, .f32⟩ : BufTy).Contents (Elt F) → (⟨S50000x16, .f32⟩ : BufTy).Contents (Elt F)),
    binary main_v87 main_v89 main_v90 (addf : (⟨S50000x16, .f32⟩ : BufTy).Contents (Elt F) → (⟨S50000x16, .f32⟩ : BufTy).Contents (Elt F) → (⟨S50000x16, .f32⟩ : BufTy).Contents (Elt F)) ]

/-- Operations 120 … 127 of @main. -/
abbrev segH : List (HloOp τ sig (Elt F)) :=
  [ TRef.nullary (TRef.of (T := ⟨S_, .f32⟩) main_call3_cst) (constant S_ .f32 0xFF800000#32),
    TRef.binary (TRef.of (T := ⟨S50000x16, .f32⟩) main_v90) (TRef.of (T := ⟨S_, .f32⟩) main_call3_cst) (TRef.of (T := ⟨S50000, .f32⟩) main_call3_v0) (fun x v => Host.reduce FloatOps.maximumf x v reducesTo_S50000x16_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x16, .f32⟩) main_call3_v4) (broadcastInDim S50000x16 ![0, 1] bcast_S50000x1_S50000x16_0_1),
    TRef.binary (TRef.of (T := ⟨S50000x16, .f32⟩) main_v90) (TRef.of (T := ⟨S50000x16, .f32⟩) main_call3_v4) (TRef.of (T := ⟨S50000x16, .f32⟩) main_call3_v5) subf ]

/-- Operations 128 … 134 of @main. -/
abbrev segI : List (HloOp τ sig (Elt F)) :=
  [ TRef.unary (TRef.of (T := ⟨S50000x16, .f32⟩) main_call3_v5) (TRef.of (T := ⟨S50000x16, .f32⟩) main_call3_v6) Host.exp,
    TRef.nullary (TRef.of (T := ⟨S_, .f32⟩) main_call3_cst_1) (constant S_ .f32 0x00000000#32),
    TRef.binary (TRef.of (T := ⟨S50000x16, .f32⟩) main_call3_v6) (TRef.of (T := ⟨S_, .f32⟩) main_call3_cst_1) (TRef.of (T := ⟨S50000, .f32⟩) main_call3_v7) (fun x v => Host.reduceAdd x v reducesTo_S50000x16_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x16, .f32⟩) main_call3_v10) (broadcastInDim S50000x16 ![0, 1] bcast_S50000x1_S50000x16_0_1),
    TRef.binary (TRef.of (T := ⟨S50000x16, .f32⟩) main_call3_v5) (TRef.of (T := ⟨S50000x16, .f32⟩) main_call3_v10) (TRef.of (T := ⟨S50000x16, .f32⟩) main_v91) subf ]

set_option maxRecDepth 65536 in
set_option maxHeartbeats 4000000 in
/-- The line of operations is its nine pieces, in order. -/
theorem ops_split : (ops : List (HloOp τ sig (Elt F))) = segA ++ (segB ++ (segC ++ (segD ++ (segE ++ (segF ++ (segG ++ (segH ++ segI))))))) := rfl

variable (W : Valuation τ sig (Elt Ideal))

/-! ## Piece A: the index lists, the first product, the degree, its comparison with zero and its inverse square root -/

theorem rA_v1   :
    after segA W (Proc.devRef .tc main_v1) = val_main_v1 (F := Ideal) (W (Proc.devRef .tc main_arg1)) := by
  simp only [segA]; fold_results
  rfl
theorem rA_v3   :
    after segA W (Proc.devRef .tc main_v3) = val_main_v3 (F := Ideal) (W (Proc.devRef .tc main_arg1)) := by
  simp only [segA]; fold_results
  rfl
theorem rA_v4   :
    after segA W (Proc.devRef .tc main_v4) = val_main_v4 (F := Ideal) (W (Proc.devRef .tc main_arg0)) (W (Proc.devRef .tc main_arg2)) := by
  simp only [segA]; fold_results
  rfl
theorem rA_v6   :
    after segA W (Proc.devRef .tc main_v6) = val_main_v6 (F := Ideal) (W (Proc.devRef .tc main_arg1)) := by
  simp only [segA]; fold_results
  rfl
theorem rA_v7   :
    after segA W (Proc.devRef .tc main_v7) = val_main_v7 (F := Ideal) (W (Proc.devRef .tc main_arg1)) := by
  simp only [segA]; fold_results
  rfl
theorem rA_v13   :
    after segA W (Proc.devRef .tc main_v13) = val_main_v13 (F := Ideal) (W (Proc.devRef .tc main_arg1)) := by
  simp only [segA]; fold_results
  rfl
theorem rA_v14   :
    after segA W (Proc.devRef .tc main_v14) = val_main_v14 (F := Ideal) (W (Proc.devRef .tc main_arg1)) := by
  simp only [segA]; fold_results
  rfl
theorem rA_cst_2   :
    after segA W (Proc.devRef .tc main_cst_2) = val_main_cst_2 (F := Ideal) := by
  simp only [segA]; fold_results
  rfl
theorem rA_keep_arg3 : after segA W (Proc.devRef .tc main_arg3) = W (Proc.devRef .tc main_arg3) := by
  simp only [segA]; fold_results
theorem rA_keep_arg4 : after segA W (Proc.devRef .tc main_arg4) = W (Proc.devRef .tc main_arg4) := by
  simp only [segA]; fold_results
theorem rA_keep_arg5 : after segA W (Proc.devRef .tc main_arg5) = W (Proc.devRef .tc main_arg5) := by
  simp only [segA]; fold_results

/-! ## Piece B: the inverse square root kept where the degree is positive -/

theorem rB_v15 (x1 : (⟨S2x1600000, .i32⟩ : BufTy).Contents (Elt Ideal)) (h0 : W (Proc.devRef .tc main_v13) = val_main_v13 (F := Ideal) x1) (h1 : W (Proc.devRef .tc main_v14) = val_main_v14 (F := Ideal) x1) (h2 : W (Proc.devRef .tc main_cst_2) = val_main_cst_2 (F := Ideal)) :
    after segB W (Proc.devRef .tc main_v15) = val_main_v15 (F := Ideal) x1 := by
  simp only [segB]; after_results_simp
  simp only [TRef.toBuf, TRef.ofBuf, cast_eq, id_eq]
  rw [h0, h1, h2]
  rfl
theorem rB_keep_v1 : after segB W (Proc.devRef .tc main_v1) = W (Proc.devRef .tc main_v1) := by
  simp only [segB]; after_results_simp
theorem rB_keep_v3 : after segB W (Proc.devRef .tc main_v3) = W (Proc.devRef .tc main_v3) := by
  simp only [segB]; after_results_simp
theorem rB_keep_v4 : after segB W (Proc.devRef .tc main_v4) = W (Proc.devRef .tc main_v4) := by
  simp only [segB]; after_results_simp
theorem rB_keep_v6 : after segB W (Proc.devRef .tc main_v6) = W (Proc.devRef .tc main_v6) := by
  simp only [segB]; after_results_simp
theorem rB_keep_v7 : after segB W (Proc.devRef .tc main_v7) = W (Proc.devRef .tc main_v7) := by
  simp only [segB]; after_results_simp
theorem rB_keep_arg3 : after segB W (Proc.devRef .tc main_arg3) = W (Proc.devRef .tc main_arg3) := by
  simp only [segB]; after_results_simp
theorem rB_keep_arg4 : after segB W (Proc.devRef .tc main_arg4) = W (Proc.devRef .tc main_arg4) := by
  simp only [segB]; after_results_simp
theorem rB_keep_arg5 : after segB W (Proc.devRef .tc main_arg5) = W (Proc.devRef .tc main_arg5) := by
  simp only [segB]; after_results_simp

/-! ## Piece C: the per-edge weight, the first layer's aggregation and its bias -/

theorem rC_v46 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (h0 : W (Proc.devRef .tc main_v15) = val_main_v15 (F := Ideal) x1) (h1 : W (Proc.devRef .tc main_v6) = val_main_v6 (F := Ideal) x1) (h2 : W (Proc.devRef .tc main_v7) = val_main_v7 (F := Ideal) x1) (h3 : W (Proc.devRef .tc main_v4) = val_main_v4 (F := Ideal) x0 x2) (h4 : W (Proc.devRef .tc main_arg3) = x3) :
    after segC W (Proc.devRef .tc main_v46) = val_main_v46 (F := Ideal) x0 x1 x2 x3 := by
  simp only [segC]; after_results_simp
  rw [h0, h1, h2, h3, h4]
  rfl
theorem rC_keep_v1 : after segC W (Proc.devRef .tc main_v1) = W (Proc.devRef .tc main_v1) := by
  simp only [segC]; after_results_simp
theorem rC_keep_v3 : after segC W (Proc.devRef .tc main_v3) = W (Proc.devRef .tc main_v3) := by
  simp only [segC]; after_results_simp
theorem rC_keep_arg4 : after segC W (Proc.devRef .tc main_arg4) = W (Proc.devRef .tc main_arg4) := by
  simp only [segC]; after_results_simp
theorem rC_keep_arg5 : after segC W (Proc.devRef .tc main_arg5) = W (Proc.devRef .tc main_arg5) := by
  simp only [segC]; after_results_simp

/-! ## Piece D: the rectifier -/

theorem rD_v47 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (h0 : W (Proc.devRef .tc main_v46) = val_main_v46 (F := Ideal) x0 x1 x2 x3) :
    after segD W (Proc.devRef .tc main_v47) = val_main_v47 (F := Ideal) x0 x1 x2 x3 := by
  simp only [segD]; after_results_simp
  simp only [TRef.toBuf, TRef.ofBuf, cast_eq, id_eq]
  rw [h0]
  rfl
theorem rD_keep_v1 : after segD W (Proc.devRef .tc main_v1) = W (Proc.devRef .tc main_v1) := by
  simp only [segD]; after_results_simp
theorem rD_keep_v3 : after segD W (Proc.devRef .tc main_v3) = W (Proc.devRef .tc main_v3) := by
  simp only [segD]; after_results_simp
theorem rD_keep_arg4 : after segD W (Proc.devRef .tc main_arg4) = W (Proc.devRef .tc main_arg4) := by
  simp only [segD]; after_results_simp
theorem rD_keep_arg5 : after segD W (Proc.devRef .tc main_arg5) = W (Proc.devRef .tc main_arg5) := by
  simp only [segD]; after_results_simp

/-! ## Piece E: the second product; the index lists and the degree once more -/

theorem rE_v48 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (h0 : W (Proc.devRef .tc main_v47) = val_main_v47 (F := Ideal) x0 x1 x2 x3) (h1 : W (Proc.devRef .tc main_arg4) = x4) :
    after segE W (Proc.devRef .tc main_v48) = val_main_v48 (F := Ideal) x0 x1 x2 x3 x4 := by
  simp only [segE]; fold_results
  rw [h0, h1]
  rfl
theorem rE_v50 (x1 : (⟨S2x1600000, .i32⟩ : BufTy).Contents (Elt Ideal)) (h0 : W (Proc.devRef .tc main_v1) = val_main_v1 (F := Ideal) x1) :
    after segE W (Proc.devRef .tc main_v50) = val_main_v50 (F := Ideal) x1 := by
  simp only [segE]; fold_results
  rw [h0]
  rfl
theorem rE_v51 (x1 : (⟨S2x1600000, .i32⟩ : BufTy).Contents (Elt Ideal)) (h0 : W (Proc.devRef .tc main_v3) = val_main_v3 (F := Ideal) x1) :
    after segE W (Proc.devRef .tc main_v51) = val_main_v51 (F := Ideal) x1 := by
  simp only [segE]; fold_results
  rw [h0]
  rfl
theorem rE_v57 (x1 : (⟨S2x1600000, .i32⟩ : BufTy).Contents (Elt Ideal)) (h0 : W (Proc.devRef .tc main_v3) = val_main_v3 (F := Ideal) x1) :
    after segE W (Proc.devRef .tc main_v57) = val_main_v57 (F := Ideal) x1 := by
  simp only [segE]; fold_results
  rw [h0]
  rfl
theorem rE_v58 (x1 : (⟨S2x1600000, .i32⟩ : BufTy).Contents (Elt Ideal)) (h0 : W (Proc.devRef .tc main_v3) = val_main_v3 (F := Ideal) x1) :
    after segE W (Proc.devRef .tc main_v58) = val_main_v58 (F := Ideal) x1 := by
  simp only [segE]; fold_results
  rw [h0]
  rfl
theorem rE_cst_12   :
    after segE W (Proc.devRef .tc main_cst_12) = val_main_cst_12 (F := Ideal) := by
  simp only [segE]; fold_results
  rfl
theorem rE_keep_arg5 : after segE W (Proc.devRef .tc main_arg5) = W (Proc.devRef .tc main_arg5) := by
  simp only [segE]; fold_results

/-! ## Piece F: the inverse square root kept where the degree is positive, once more -/

theorem rF_v59 (x1 : (⟨S2x1600000, .i32⟩ : BufTy).Contents (Elt Ideal)) (h0 : W (Proc.devRef .tc main_v57) = val_main_v57 (F := Ideal) x1) (h1 : W (Proc.devRef .tc main_v58) = val_main_v58 (F := Ideal) x1) (h2 : W (Proc.devRef .tc main_cst_12) = val_main_cst_12 (F := Ideal)) :
    after segF W (Proc.devRef .tc main_v59) = val_main_v59 (F := Ideal) x1 := by
  simp only [segF]; after_results_simp
  simp only [TRef.toBuf, TRef.ofBuf, cast_eq, id_eq]
  rw [h0, h1, h2]
  rfl
theorem rF_keep_v48 : after segF W (Proc.devRef .tc main_v48) = W (Proc.devRef .tc main_v48) := by
  simp only [segF]; after_results_simp
theorem rF_keep_v50 : after segF W (Proc.devRef .tc main_v50) = W (Proc.devRef .tc main_v50) := by
  simp only [segF]; after_results_simp
theorem rF_keep_v51 : after segF W (Proc.devRef .tc main_v51) = W (Proc.devRef .tc main_v51) := by
  simp only [segF]; after_results_simp
theorem rF_keep_arg5 : after segF W (Proc.devRef .tc main_arg5) = W (Proc.devRef .tc main_arg5) := by
  simp only [segF]; after_results_simp

/-! ## Piece G: the per-edge weight once more, the second layer's aggregation and its bias -/

theorem rG_v90 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h0 : W (Proc.devRef .tc main_v59) = val_main_v59 (F := Ideal) x1) (h1 : W (Proc.devRef .tc main_v50) = val_main_v50 (F := Ideal) x1) (h2 : W (Proc.devRef .tc main_v51) = val_main_v51 (F := Ideal) x1) (h3 : W (Proc.devRef .tc main_v48) = val_main_v48 (F := Ideal) x0 x1 x2 x3 x4) (h4 : W (Proc.devRef .tc main_arg5) = x5) :
    after segG W (Proc.devRef .tc main_v90) = val_main_v90 (F := Ideal) x0 x1 x2 x3 x4 x5 := by
  simp only [segG]; after_results_simp
  rw [h0, h1, h2, h3, h4]
  rfl

/-! ## Pieces H and I: the logarithm of the softmax along the rows — the row maximum subtracted; then the logarithm of the row's sum of exponentials subtracted -/

/-- A typed reference's two transports of contents undo each other. -/
theorem ofBuf_toBuf {T : BufTy} {Val : EltTy → Type} (x : TRef sig T) (v : T.Contents Val) : x.ofBuf (x.toBuf v) = v := by
  obtain ⟨r, p, hd, hu⟩ := x
  subst p
  rfl

theorem rH_call3_v5 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h0 : W (Proc.devRef .tc main_v90) = val_main_v90 (F := Ideal) x0 x1 x2 x3 x4 x5) :
    after segH W (Proc.devRef .tc main_call3_v5) = val_main_call3_v5 (F := Ideal) x0 x1 x2 x3 x4 x5 := by
  simp only [segH]; after_results_simp
  have e_in : ∀ w, (TRef.of (T := ⟨S50000x16, .f32⟩) main_v90).ofBuf (Val := Elt Ideal) w = w := fun _ => rfl
  have e_out : ∀ u, (TRef.of (T := ⟨S50000x16, .f32⟩) main_call3_v5).toBuf (Val := Elt Ideal) u = u := fun _ => rfl
  repeat rw [ofBuf_toBuf]
  rw [e_out, e_in, h0]
  rfl

theorem rI_v91 (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h0 : W (Proc.devRef .tc main_call3_v5) = val_main_call3_v5 (F := Ideal) x0 x1 x2 x3 x4 x5) :
    after segI W (Proc.devRef .tc main_v91) = val_main_v91 (F := Ideal) x0 x1 x2 x3 x4 x5 := by
  simp only [segI]; after_results_simp
  have e_in : ∀ w, (TRef.of (T := ⟨S50000x16, .f32⟩) main_call3_v5).ofBuf (Val := Elt Ideal) w = w := fun _ => rfl
  have e_out : ∀ u, (TRef.of (T := ⟨S50000x16, .f32⟩) main_v91).toBuf (Val := Elt Ideal) u = u := fun _ => rfl
  repeat rw [ofBuf_toBuf]
  rw [e_out, e_in, h0]
  rfl

/-! ## The whole line -/

/-- After the whole line the result buffer holds the last stage of the six argument arrays. -/
theorem ref_value : after (ops (F := Ideal)) W (Proc.devRef .tc main_v91)
    = val_main_v91 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split]
  simp only [after_append]
  -- after piece A
  have hA1 := rA_v1 W
  have hA3 := rA_v3 W
  have hA4 := rA_v4 W
  have hA6 := rA_v6 W
  have hA7 := rA_v7 W
  have hA13 := rA_v13 W
  have hA14 := rA_v14 W
  have hAc := rA_cst_2 W
  have hAa3 := rA_keep_arg3 W
  have hAa4 := rA_keep_arg4 W
  have hAa5 := rA_keep_arg5 W
  generalize after segA W = WA at *
  -- after piece B
  have hB15 := rB_v15 WA _ hA13 hA14 hAc
  have hB1 := (rB_keep_v1 WA).trans hA1
  have hB3 := (rB_keep_v3 WA).trans hA3
  have hB4 := (rB_keep_v4 WA).trans hA4
  have hB6 := (rB_keep_v6 WA).trans hA6
  have hB7 := (rB_keep_v7 WA).trans hA7
  have hBa3 := (rB_keep_arg3 WA).trans hAa3
  have hBa4 := (rB_keep_arg4 WA).trans hAa4
  have hBa5 := (rB_keep_arg5 WA).trans hAa5
  generalize after segB WA = WB at *
  -- after piece C
  have hC46 := rC_v46 WB _ _ _ _ hB15 hB6 hB7 hB4 hBa3
  have hC1 := (rC_keep_v1 WB).trans hB1
  have hC3 := (rC_keep_v3 WB).trans hB3
  have hCa4 := (rC_keep_arg4 WB).trans hBa4
  have hCa5 := (rC_keep_arg5 WB).trans hBa5
  generalize after segC WB = WC at *
  -- after piece D
  have hD47 := rD_v47 WC _ _ _ _ hC46
  have hD1 := (rD_keep_v1 WC).trans hC1
  have hD3 := (rD_keep_v3 WC).trans hC3
  have hDa4 := (rD_keep_arg4 WC).trans hCa4
  have hDa5 := (rD_keep_arg5 WC).trans hCa5
  generalize after segD WC = WD at *
  -- after piece E
  have hE48 := rE_v48 WD _ _ _ _ _ hD47 hDa4
  have hE50 := rE_v50 WD _ hD1
  have hE51 := rE_v51 WD _ hD3
  have hE57 := rE_v57 WD _ hD3
  have hE58 := rE_v58 WD _ hD3
  have hEc := rE_cst_12 WD
  have hEa5 := (rE_keep_arg5 WD).trans hDa5
  generalize after segE WD = WE at *
  -- after piece F
  have hF59 := rF_v59 WE _ hE57 hE58 hEc
  have hF48 := (rF_keep_v48 WE).trans hE48
  have hF50 := (rF_keep_v50 WE).trans hE50
  have hF51 := (rF_keep_v51 WE).trans hE51
  have hFa5 := (rF_keep_arg5 WE).trans hEa5
  generalize after segF WE = WF at *
  -- pieces G, H and I
  have hG90 := rG_v90 WF _ _ _ _ _ _ hF59 hF50 hF51 hF48 hFa5
  generalize after segG WF = WG at *
  have hH5 := rH_call3_v5 WG _ _ _ _ _ _ hG90
  generalize after segH WG = WH at *
  exact rI_v91 WH _ _ _ _ _ _ hH5

set_option maxHeartbeats 4000000 in
/-- No operation writes argument 0. -/
theorem ref_arg0 : after (ops (F := Ideal)) W (Proc.devRef .tc main_arg0) = W (Proc.devRef .tc main_arg0) := by
  simp only [ops]; fold_results
set_option maxHeartbeats 4000000 in
/-- No operation writes argument 1. -/
theorem ref_arg1 : after (ops (F := Ideal)) W (Proc.devRef .tc main_arg1) = W (Proc.devRef .tc main_arg1) := by
  simp only [ops]; fold_results
set_option maxHeartbeats 4000000 in
/-- No operation writes argument 2. -/
theorem ref_arg2 : after (ops (F := Ideal)) W (Proc.devRef .tc main_arg2) = W (Proc.devRef .tc main_arg2) := by
  simp only [ops]; fold_results
set_option maxHeartbeats 4000000 in
/-- No operation writes argument 3. -/
theorem ref_arg3 : after (ops (F := Ideal)) W (Proc.devRef .tc main_arg3) = W (Proc.devRef .tc main_arg3) := by
  simp only [ops]; fold_results
set_option maxHeartbeats 4000000 in
/-- No operation writes argument 4. -/
theorem ref_arg4 : after (ops (F := Ideal)) W (Proc.devRef .tc main_arg4) = W (Proc.devRef .tc main_arg4) := by
  simp only [ops]; fold_results
set_option maxHeartbeats 4000000 in
/-- No operation writes argument 5. -/
theorem ref_arg5 : after (ops (F := Ideal)) W (Proc.devRef .tc main_arg5) = W (Proc.devRef .tc main_arg5) := by
  simp only [ops]; fold_results

/-! ## The run -/

/-- Every weakly fair execution of the reference terminates with the result buffer at the last stage of the launch
    arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = val_main_v91 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v91).trans (ref_value (launchContents m c)),
     (h c main_arg0).trans (ref_arg0 (launchContents m c)),
     (h c main_arg1).trans (ref_arg1 (launchContents m c)),
     (h c main_arg2).trans (ref_arg2 (launchContents m c)),
     (h c main_arg3).trans (ref_arg3 (launchContents m c)),
     (h c main_arg4).trans (ref_arg4 (launchContents m c)),
     (h c main_arg5).trans (ref_arg5 (launchContents m c))⟩)
    (Cert.ReferenceIdeal.RunP.run (F := Ideal) m ρ)

end Cert.ReferenceIdeal.RefValue

end
-- ==== Proof.lean ====
/-
  The two-layer graph convolution: the tiled kernel against its jnp reference, over the extended reals.

  Both programs compute `log_softmax (Â · relu (Â · (x W1) + b1) · W2 + b2)` along the rows, where `Â` is the edge list's
  normalized adjacency with self-loops: a gather of the source rows, a scaling by the per-edge weight `dinv[s] · dinv[d]` and a
  scatter-add into the target rows. The edge-indexed part is the same host operations in both, on the same index lists; it
  is carried as the reference's own stages and never opened. The three dense parts are where the programs differ in form:
  the kernel computes each in ten blocks of 5000 rows — a product into a zero accumulator; bias, rectifier and product;
  bias and the logarithm of the softmax — and the reference on whole arrays. At the extended reals each block's entry is
  the same finite sum, maximum, exponential and logarithm of the same entries as the whole array's, so the blocks tile the
  reference's stage. No law of arithmetic beyond that reading is used, and the inputs' finiteness is not needed.

  `frame_Kernel` and `frame_KernelIdeal` are the generated runs through the three regions; `frame_ReferenceIdeal` is the
  reference's run with its result dropped; `preserves` has no conjunct (the idealization rewrote nothing); `algebraic`
  states both runs at the reference's last stage of the shared arguments.
-/
import proofs.«129904_j44736379355209_1_alg».proof.Defs
import proofs.«129904_j44736379355209_1_alg».proof.Proof.Gen.Kernel
import proofs.«129904_j44736379355209_1_alg».proof.Proof.Gen.Kernel.Skeleton
import proofs.«129904_j44736379355209_1_alg».proof.Proof.Gen.Kernel.Launch
import proofs.«129904_j44736379355209_1_alg».proof.Proof.Gen.Kernel.Points
import proofs.«129904_j44736379355209_1_alg».proof.Proof.Gen.Kernel.Frame
import proofs.«129904_j44736379355209_1_alg».proof.Proof.Gen.KernelIdeal
import proofs.«129904_j44736379355209_1_alg».proof.Proof.Gen.KernelIdeal.Skeleton
import proofs.«129904_j44736379355209_1_alg».proof.Proof.Gen.KernelIdeal.Launch
import proofs.«129904_j44736379355209_1_alg».proof.Proof.Gen.KernelIdeal.Points
import proofs.«129904_j44736379355209_1_alg».proof.Proof.Gen.KernelIdeal.Frame
import proofs.«129904_j44736379355209_1_alg».proof.Proof.Gen.ReferenceIdeal
import proofs.«129904_j44736379355209_1_alg».proof.Proof.Gen.Pre_finite_inputs
import proofs.«129904_j44736379355209_1_alg».proof.Proof.KernelValue
import proofs.«129904_j44736379355209_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation: nothing to preserve. -/
theorem preserves : Cert.preserves_Kernel_KernelIdeal := trivial

/-- Both runs end with the result at the reference's last stage of the argument arrays, which the two memories share. -/
theorem algebraic : Cert.algebraic_KernelIdeal_ReferenceIdeal := by
  intro m ρ m' ρ' _ hagree
  refine ⟨fun c => Cert.ReferenceIdeal.ReadP.val_main_v91 (F := Ideal) (Cert.KernelIdeal.KValue.a0 m c)
      (Cert.KernelIdeal.KValue.a1 m c) (Cert.KernelIdeal.KValue.a2 m c) (Cert.KernelIdeal.KValue.a3 m c)
      (Cert.KernelIdeal.KValue.a4 m c) (Cert.KernelIdeal.KValue.a5 m c), Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
